-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2x128 .f32) (main_arg17 : FVec F S2 .f32) (main_v63 : IVec S_ 1) (main_v67 : IVec S_ 1) : IVec S_ 1 :=
  let main_v68 : IVec S_ 1 := andi main_v63 main_v67
  let main_v69 : FVec F S2x128 .f32 := Host.absf main_arg16
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S2x128 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S2x128 .f32) (main_arg17 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S2x128 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_arg16 : FVec F S2x128 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x2 : Shape := ⟨2, ![128, 2]⟩
abbrev S200000x2 : Shape := ⟨2, ![200000, 2]⟩

abbrev nBuf : Space → Nat
  | .hbm => 139
  | .vmem => 39
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128, .f32⟩
  | 16 => ⟨S2x128, .f32⟩
  | 17 => ⟨S2, .f32⟩
  | 18 => ⟨S1x800000, .i32⟩
  | 19 => ⟨S800000, .i32⟩
  | 20 => ⟨S1x800000, .i32⟩
  | 21 => ⟨S800000, .i32⟩
  | 22 => ⟨S128x128, .f32⟩
  | 23 => ⟨S128x128, .f32⟩
  | 24 => ⟨S128x128, .f32⟩
  | 25 => ⟨S128x128, .f32⟩
  | 26 => ⟨S128x128, .f32⟩
  | 27 => ⟨S128x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S1x200000, .i32⟩
  | 107 => ⟨S200000, .i32⟩
  | 108 => ⟨S1x200000, .i32⟩
  | 109 => ⟨S200000, .i32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S200000x128, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x128, .f32⟩
  | _ => ⟨S50000x128, .f32⟩

abbrev hbmTy0_1 (i : Nat) : BufTy := match i % 128 with
  | 0 => ⟨S128x128, .f32⟩
  | 1 => ⟨S128x128, .f32⟩
  | 2 => ⟨S128x2, .f32⟩
  | 3 => ⟨S_, .i32⟩
  | 4 => ⟨S_, .f32⟩
  | 5 => ⟨S128x128, .f32⟩
  | 6 => ⟨S_, .i32⟩
  | 7 => ⟨S_, .f32⟩
  | 8 => ⟨S128, .f32⟩
  | 9 => ⟨S200000x128, .f32⟩
  | 10 => ⟨S200000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128x128, .f32⟩
  | .local _ .vmem, ⟨36, _⟩ => ⟨S128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_c_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_20 : Ref sig .tc := ⟨.hbm, 131, rfl⟩
abbrev main_call0_v0 : Ref sig .tc := ⟨.hbm, 132, rfl⟩
abbrev main_v91 : Ref sig .tc := ⟨.hbm, 133, rfl⟩
abbrev main_c_21 : Ref sig .tc := ⟨.hbm, 134, rfl⟩
abbrev main_call1_v0 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  transposes_S2x128_S128x2_1_0 : S2x128.Transposes [1, 0] S128x2
  pads_S128x2_S128x128_000_01260 : S128x2.Pads (![0, 0] : Fin 2 → Nat) ![0, 126] ![0, 0] S128x128
  h_S_ : 0 < S_.numel
  pads_S2_S128_01260 : S2.Pads (![0] : Fin 1 → Nat) ![126] ![0] S128
  shapeCasts_S128_S128 : S128.ShapeCasts S128
  slices_S200000x128_S200000x2_0_0 : S200000x128.Slices ![0, 0] S200000x2
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S200000x128.size a
  hwx3_8 : ∀ i : grid3.Coords, EltTy.bits .f32 = 32 ∨ (Rect.block (s := S200000x128) S5000x128.size (cc3_transform_8 i) (hinb3_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v92) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v93) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x2 : Shape := ⟨2, ![128, 2]⟩
abbrev S200000x2 : Shape := ⟨2, ![200000, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128, .f32⟩
  | 16 => ⟨S2x128, .f32⟩
  | 17 => ⟨S2, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S128x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S128x128, .f32⟩
  | 84 => ⟨S50000x128, .f32⟩
  | 85 => ⟨S1x128, .f32⟩
  | 86 => ⟨S50000x128, .f32⟩
  | 87 => ⟨S50000x128, .f32⟩
  | 88 => ⟨S128x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S128x128, .f32⟩
  | 120 => ⟨S50000x128, .f32⟩
  | 121 => ⟨S1x128, .f32⟩
  | 122 => ⟨S50000x128, .f32⟩
  | 123 => ⟨S50000x128, .f32⟩
  | 124 => ⟨S128x128, .f32⟩
  | 125 => ⟨S50000x128, .f32⟩
  | 126 => ⟨S50000x128, .f32⟩
  | 127 => ⟨S1x200000, .i32⟩
  | _ => ⟨S50000x128, .f32⟩

abbrev hbmTy0_1 (i : Nat) : BufTy := match i % 128 with
  | 0 => ⟨S200000, .i32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x128, .f32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S200000x128, .f32⟩
  | 22 => ⟨S128x128, .f32⟩
  | 23 => ⟨S200000x128, .f32⟩
  | 24 => ⟨S1x128, .f32⟩
  | 25 => ⟨S200000x128, .f32⟩
  | 26 => ⟨S200000x128, .f32⟩
  | 27 => ⟨S_, .f32⟩
  | 28 => ⟨S200000x128, .f32⟩
  | 29 => ⟨S200000x128, .f32⟩
  | 30 => ⟨S128x128, .f32⟩
  | 31 => ⟨S200000x128, .f32⟩
  | 32 => ⟨S1x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S128x2, .f32⟩
  | 39 => ⟨S200000x2, .f32⟩
  | 40 => ⟨S1x2, .f32⟩
  | 41 => ⟨S200000x2, .f32⟩
  | 42 => ⟨S200000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call0_cst : Ref sig .tc := ⟨.hbm, 55, rfl⟩
abbrev main_call0_v0 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_c_10 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_cst_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_16 : Ref sig .tc := ⟨.hbm, 131, rfl⟩
abbrev main_v91 : Ref sig .tc := ⟨.hbm, 132, rfl⟩
abbrev main_v92 : Ref sig .tc := ⟨.hbm, 133, rfl⟩
abbrev main_c_17 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_18 : Ref sig .tc := ⟨.hbm, 140, rfl⟩
abbrev main_v98 : Ref sig .tc := ⟨.hbm, 141, rfl⟩
abbrev main_v99 : Ref sig .tc := ⟨.hbm, 142, rfl⟩
abbrev main_c_19 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call2_cst : Ref sig .tc := ⟨.hbm, 155, rfl⟩
abbrev main_call2_v0 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call3_cst : Ref sig .tc := ⟨.hbm, 163, rfl⟩
abbrev main_call3_v0 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S2x128_S128x2_1_0 : S2x128.Transposes [1, 0] S128x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x128_S128x128_S200000x128_1_0_0_1_n_n_wf : DotDims.WF S200000x128 S128x128 S200000x128 [1] [0] [0] [1] [] []
  dot_S200000x128_S128x2_S200000x2_1_0_0_1_n_n_wf : DotDims.WF S200000x128 S128x2 S200000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf

class Facts : Prop extends Facts₀ where

variable [Facts]
-- ==== Proof.Spec.lean ====
/-
  The mathematics of the network, with no program in sight.

  A node-feature table is a matrix of extended reals with 128 columns.  One layer sends a table `feat`, together with
  the table `mean` of its neighbourhood averages, to

      out[r, c] = (sum_k mean[r, k] * wl[k, c] + bl[c]) + sum_k feat[r, k] * wr[k, c],

  possibly followed by the positive part.  The value at row `r` depends on row `r` of the two tables only, which is why
  the same definition describes a block of rows and the whole table.  The decoder multiplies two gathered tables
  entry by entry and applies three such affine maps, the first two followed by the positive part.

  How neighbourhood averages and gathered rows are obtained from a table is left abstract here (`agg`, `gs`, `gd`):
  both programs obtain them by the same operations, so nothing about them is ever needed.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals, indexed as the programs index their rank-2 arrays. -/
abbrev Mat (r c : Nat) := (⟨2, ![r, c]⟩ : Shape).Idx → EReal
/-- A row of extended reals. -/
abbrev Row (n : Nat) := (⟨1, ![n]⟩ : Shape).Idx → EReal

/-- The value of the literal `0.0`. -/
abbrev zero : EReal := Ideal.ofBits .f32 0x00000000#32

/-- An affine map applied to every row: `a · w + b`, the contraction over the 128 columns of `a`. -/
def lin {n p : Nat} (a : Mat n 128) (w : Mat 128 p) (b : Row p) : Mat n p :=
  fun i => (∑ k : Fin 128, a (ix2 (i 0) k) * w (ix2 k (i 1))) + b (ix1 (i 1))

/-- One layer before its activation: the affine map of the averages plus the linear map of the features. -/
def sage {n : Nat} (mean feat : Mat n 128) (wl : Mat 128 128) (bl : Row 128) (wr : Mat 128 128) : Mat n 128 :=
  fun i => lin mean wl bl i + ∑ k : Fin 128, feat (ix2 (i 0) k) * wr (ix2 k (i 1))

/-- The positive part, entry by entry. -/
def relu {n p : Nat} (a : Mat n p) : Mat n p := fun i => max (a i) zero

/-- The decoder on two gathered tables. -/
def dec {n p : Nat} (qs qd : Mat n 128) (w1 : Mat 128 128) (b1 : Row 128) (w2 : Mat 128 128) (b2 : Row 128)
    (w3 : Mat 128 p) (b3 : Row p) : Mat n p :=
  lin (relu (lin (relu (lin (fun i => qs i * qd i) w1 b1)) w2 b2)) w3 b3

/-- The whole network: three layers, the first two with the positive part, then the decoder on the gathered rows. -/
def net (agg : Mat 50000 128 → Mat 50000 128) (gs gd : Mat 50000 128 → Mat 200000 128)
    (x : Mat 50000 128)
    (wl1 : Mat 128 128) (bl1 : Row 128) (wr1 : Mat 128 128)
    (wl2 : Mat 128 128) (bl2 : Row 128) (wr2 : Mat 128 128)
    (wl3 : Mat 128 128) (bl3 : Row 128) (wr3 : Mat 128 128)
    (w1 : Mat 128 128) (b1 : Row 128) (w2 : Mat 128 128) (b2 : Row 128) (w3 : Mat 128 2) (b3 : Row 2) : Mat 200000 2 :=
  let z1 := relu (sage (agg x) x wl1 bl1 wr1)
  let z2 := relu (sage (agg z1) z1 wl2 bl2 wr2)
  let z3 := sage (agg z2) z2 wl3 bl3 wr3
  dec (gs z3) (gd z3) w1 b1 w2 b2 w3 b3

/-- A layer's value at a row depends on that row of its two tables only: if two pairs of tables agree on a row (of
    possibly different heights), the layer's values on that row agree. -/
theorem sage_row {n n' : Nat} (mean feat : Mat n 128) (mean' feat' : Mat n' 128) (wl : Mat 128 128) (bl : Row 128)
    (wr : Mat 128 128) (r : Fin n) (r' : Fin n') (c : Fin 128)
    (hm : ∀ k : Fin 128, mean (ix2 r k) = mean' (ix2 r' k)) (hf : ∀ k : Fin 128, feat (ix2 r k) = feat' (ix2 r' k)) :
    sage mean feat wl bl wr (ix2 r c) = sage mean' feat' wl bl wr (ix2 r' c) := by
  unfold sage lin
  show (∑ k : Fin 128, mean (ix2 r k) * wl (ix2 k c)) + bl (ix1 c) + ∑ k : Fin 128, feat (ix2 r k) * wr (ix2 k c)
     = (∑ k : Fin 128, mean' (ix2 r' k) * wl (ix2 k c)) + bl (ix1 c) + ∑ k : Fin 128, feat' (ix2 r' k) * wr (ix2 k c)
  simp only [hm, hf]

end Cert.Sage

end
-- ==== Proof.KHost.lean ====
/-
  The host-side functions of the kernel program, named once.

  Between its pipelined regions the program applies plain array operations: it splits the edge array into its two
  rows, gathers the rows of a node table at the source nodes, adds them up at the destination nodes, divides by the
  (clamped) number of incoming edges; it transposes weight matrices; for the decoder it gathers rows at the query
  nodes, and widens the last layer's weights and bias with padding.  Each is named here as a function of its inputs, so
  that later statements can speak of `agg e feat` without ever looking inside.
-/
import proofs.«139408_j66992899883186_1_alg».proof.KernelIdeal
import proofs.«139408_j66992899883186_1_alg».proof.Proof.Gen.KernelIdeal
import proofs.«139408_j66992899883186_1_alg».proof.Proof.Spec
import Idealize.ShloMosaic.PureOps.Ideal

noncomputable section

namespace Cert.KernelIdeal.Host

open Cert.KernelIdeal Cert.KernelIdeal.Gen Idealize.ShloMosaic Cert.Sage

/-- An integer array as the program holds it. -/
abbrev IArr (s : Shape) := (⟨s, .i32⟩ : BufTy).Contents (Elt Ideal)

/-- Row 0 of the edge array: the source node of every edge. -/
def srcOf (e : IArr S2x800000) : IArr S800000 :=
  shapeCast S800000 (extractStridedSlice S1x800000 ![0, 0] e slices_S2x800000_S1x800000_0_0) shapeCasts_S1x800000_S800000
/-- Row 1 of the edge array: the destination node of every edge. -/
def dstOf (e : IArr S2x800000) : IArr S800000 :=
  shapeCast S800000 (extractStridedSlice S1x800000 ![1, 0] e slices_S2x800000_S1x800000_1_0) shapeCasts_S1x800000_S800000

/-- The neighbourhood average of a node table: the rows gathered at the sources (a negative index counted from the
    end), summed at the destinations, divided by the number of incoming edges or by one where there is none. -/
def aggSD (src dst : IArr S800000) (feat : Mat 50000 128) : Mat 50000 128 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- The neighbourhood average over the edges of the edge array `e`. -/
def agg (e : IArr S2x800000) (feat : Mat 50000 128) : Mat 50000 128 := aggSD (srcOf e) (dstOf e) feat

/-- A square weight matrix transposed. -/
def tr (w : Mat 128 128) : Mat 128 128 := transpose S128x128 [1, 0] w transposes_S128x128_S128x128_1_0
/-- The last layer's 2 × 128 weight matrix transposed. -/
def tr2 (w : Mat 2 128) : Mat 128 2 := transpose S128x2 [1, 0] w transposes_S2x128_S128x2_1_0

/-- Row 0 / row 1 of the query array. -/
def qsOf (q : IArr S2x200000) : IArr S200000 :=
  shapeCast S200000 (extractStridedSlice S1x200000 ![0, 0] q slices_S2x200000_S1x200000_0_0) shapeCasts_S1x200000_S200000
def qdOf (q : IArr S2x200000) : IArr S200000 :=
  shapeCast S200000 (extractStridedSlice S1x200000 ![1, 0] q slices_S2x200000_S1x200000_1_0) shapeCasts_S1x200000_S200000

/-- The rows of a node table gathered at query nodes (a negative index counted from the end). -/
def gatherQ (qi : IArr S200000) (z : Mat 50000 128) : Mat 200000 128 :=
  Host.gather gather_S50000x128_S200000x1_S200000x128_1_0_n_n_0_1_1128 z
    (broadcastInDim S200000x1 ![0] bcast_S200000_S200000x1_0
      (select (cmpi .slt qi (broadcastInDim S200000 ![] bcast_S_S200000 (constantI S_ 32 0#32)))
        (addi qi (broadcastInDim S200000 ![] bcast_S_S200000 (constantI S_ 32 50000#32))) qi))

def gs (q : IArr S2x200000) (z : Mat 50000 128) : Mat 200000 128 := gatherQ (qsOf q) z
def gd (q : IArr S2x200000) (z : Mat 50000 128) : Mat 200000 128 := gatherQ (qdOf q) z

/-- The padding value: the integer 0 converted to a float. -/
def padVal : (⟨S_, .f32⟩ : BufTy).Contents (Elt Ideal) := sitofp (F := Ideal) .f32 (constantI S_ 32 0#32)

/-- The last layer's weights widened from 2 to 128 columns, its bias from 2 to 128 entries. -/
def padW (w : Mat 128 2) : Mat 128 128 := pad S128x128 ![0, 0] ![0, 126] ![0, 0] w padVal pads_S128x2_S128x128_000_01260 h_S_
def padB (b : Row 2) : Row 128 := pad S128 ![0] ![126] ![0] b padVal pads_S2_S128_01260 h_S_

end Cert.KernelIdeal.Host

end
-- ==== Proof.KChain1.lean ====
/-
  What the buffers hold when the first region is entered.

  The buffer contents at a segment boundary are a fold of the host operations over the launch memory.  Two kinds of step
  are used all along the program: a stretch of host operations leaves a buffer it does not write as it found it, and a
  buffer it writes holds the operation's function of the operands' contents.  Here the first stretch: the two rows of
  the edge array, the six transposed weight matrices, and the first layer's neighbourhood averages of the input table.
-/
import proofs.«139408_j66992899883186_1_alg».proof.Proof.Gen.KernelIdeal.Frame
import proofs.«139408_j66992899883186_1_alg».proof.Proof.KHost
import Idealize.ShloMosaic.Lib.StableHlo.Run

set_option maxRecDepth 16384

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

/-- A stretch of host operations leaves a buffer none of them writes as it was: the goal `after ops V b = R` becomes
    `V b = R`. -/
macro "host_keeps" ops:ident : tactic => `(tactic|
  refine Eq.trans (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))) ?_)

variable (m : (ℓ : Loc nD τ sig) → Buf (Elt Ideal) ℓ) (ρ : Dev nD → PrngReg)

/-! ## The launch memory's argument arrays, named -/

abbrev aX (c : Dev nD) : Mat 50000 128 := m ((c.tc : Thread nD τ).loc main_arg0)
abbrev aE (c : Dev nD) : IArr S2x800000 := m ((c.tc : Thread nD τ).loc main_arg1)
abbrev aQ (c : Dev nD) : IArr S2x200000 := m ((c.tc : Thread nD τ).loc main_arg2)
abbrev aWl1 (c : Dev nD) : Mat 128 128 := m ((c.tc : Thread nD τ).loc main_arg3)
abbrev abl1 (c : Dev nD) : Row 128 := m ((c.tc : Thread nD τ).loc main_arg4)
abbrev aWr1 (c : Dev nD) : Mat 128 128 := m ((c.tc : Thread nD τ).loc main_arg5)
abbrev aWl2 (c : Dev nD) : Mat 128 128 := m ((c.tc : Thread nD τ).loc main_arg6)
abbrev abl2 (c : Dev nD) : Row 128 := m ((c.tc : Thread nD τ).loc main_arg7)
abbrev aWr2 (c : Dev nD) : Mat 128 128 := m ((c.tc : Thread nD τ).loc main_arg8)
abbrev aWl3 (c : Dev nD) : Mat 128 128 := m ((c.tc : Thread nD τ).loc main_arg9)
abbrev abl3 (c : Dev nD) : Row 128 := m ((c.tc : Thread nD τ).loc main_arg10)
abbrev aWr3 (c : Dev nD) : Mat 128 128 := m ((c.tc : Thread nD τ).loc main_arg11)
abbrev aWd1 (c : Dev nD) : Mat 128 128 := m ((c.tc : Thread nD τ).loc main_arg12)
abbrev abd1 (c : Dev nD) : Row 128 := m ((c.tc : Thread nD τ).loc main_arg13)
abbrev aWd2 (c : Dev nD) : Mat 128 128 := m ((c.tc : Thread nD τ).loc main_arg14)
abbrev abd2 (c : Dev nD) : Row 128 := m ((c.tc : Thread nD τ).loc main_arg15)
abbrev aWd3 (c : Dev nD) : Mat 2 128 := m ((c.tc : Thread nD τ).loc main_arg16)
abbrev abd3 (c : Dev nD) : Row 2 := m ((c.tc : Thread nD τ).loc main_arg17)

/-! ## After the first stretch -/

theorem W1_v1 (c : Dev nD) : W1 m ρ c (Proc.devRef .tc main_v1) = srcOf (aE m c) := by
  show StableHlo.after hostOps0 (W0 m ρ c) (Proc.devRef .tc main_v1) = _
  after_results_simp; rfl
theorem W1_v3 (c : Dev nD) : W1 m ρ c (Proc.devRef .tc main_v3) = dstOf (aE m c) := by
  show StableHlo.after hostOps0 (W0 m ρ c) (Proc.devRef .tc main_v3) = _
  after_results_simp; rfl
theorem W1_v4 (c : Dev nD) : W1 m ρ c (Proc.devRef .tc main_v4) = tr (aWl1 m c) := by
  show StableHlo.after hostOps0 (W0 m ρ c) (Proc.devRef .tc main_v4) = _
  after_results_simp; rfl
theorem W1_v5 (c : Dev nD) : W1 m ρ c (Proc.devRef .tc main_v5) = tr (aWr1 m c) := by
  show StableHlo.after hostOps0 (W0 m ρ c) (Proc.devRef .tc main_v5) = _
  after_results_simp; rfl
theorem W1_v6 (c : Dev nD) : W1 m ρ c (Proc.devRef .tc main_v6) = tr (aWl2 m c) := by
  show StableHlo.after hostOps0 (W0 m ρ c) (Proc.devRef .tc main_v6) = _
  after_results_simp; rfl
theorem W1_v7 (c : Dev nD) : W1 m ρ c (Proc.devRef .tc main_v7) = tr (aWr2 m c) := by
  show StableHlo.after hostOps0 (W0 m ρ c) (Proc.devRef .tc main_v7) = _
  after_results_simp; rfl
theorem W1_v8 (c : Dev nD) : W1 m ρ c (Proc.devRef .tc main_v8) = tr (aWl3 m c) := by
  show StableHlo.after hostOps0 (W0 m ρ c) (Proc.devRef .tc main_v8) = _
  after_results_simp; rfl
theorem W1_v9 (c : Dev nD) : W1 m ρ c (Proc.devRef .tc main_v9) = tr (aWr3 m c) := by
  show StableHlo.after hostOps0 (W0 m ρ c) (Proc.devRef .tc main_v9) = _
  after_results_simp; rfl
/-- The first layer's neighbourhood averages of the input table. -/
theorem W1_v28 (c : Dev nD) : W1 m ρ c (Proc.devRef .tc main_v28) = agg (aE m c) (aX m c) := by
  show StableHlo.after hostOps0 (W0 m ρ c) (Proc.devRef .tc main_v28) = _
  after_results_simp; rfl
theorem W1_arg0 (c : Dev nD) : W1 m ρ c (Proc.devRef .tc main_arg0) = aX m c := by
  show StableHlo.after hostOps0 (W0 m ρ c) (Proc.devRef .tc main_arg0) = _
  host_keeps hostOps0; rfl
theorem W1_arg4 (c : Dev nD) : W1 m ρ c (Proc.devRef .tc main_arg4) = abl1 m c := by
  show StableHlo.after hostOps0 (W0 m ρ c) (Proc.devRef .tc main_arg4) = _
  host_keeps hostOps0; rfl

end Cert.KernelIdeal.Chain

end
-- ==== Proof.PayOps.lean ====
/-
  Two operations every body of this network applies, read at one entry of a 5000 × 128 block.

  At the exact instance a block product into a zero accumulator is the plain sum over the contracted index of the
  operands' products, and the bias row, reshaped to one row and repeated down the block, reads its own entry in
  the column asked for.
-/
import proofs.«139408_j66992899883186_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The dimension numbers of every block product in the four bodies: rows of the left operand against columns of the
    right one, contracting the left operand's second axis with the right operand's first. -/
abbrev DD : DotDims S5000x128 S128x128 S5000x128 := dot_S5000x128_S128x128_S5000x128_1_0_0_1_n_n

/-- The left operand is read on the output's row … -/
theorem DD_lhs0 (i : S5000x128.Idx) (q : DD.contr.Idx) : (DD.lhsIdx i q 0).val = (i 0).val := by
  unfold DotDims.lhsIdx
  rw [dif_neg (show ¬(0 : Fin S5000x128.rank) ∈ DD.lhsBatch by decide),
    dif_pos (show (0 : Fin S5000x128.rank) ∈ DD.lhsNonContracting by decide)]
  rfl

/-- … at the contracted position, … -/
theorem DD_lhs1 (i : S5000x128.Idx) (q : DD.contr.Idx) : (DD.lhsIdx i q 1).val = (q ⟨0, by decide⟩).val :=
  DD.lhsIdx_val_of_single rfl i q

/-- … the right operand at the contracted position … -/
theorem DD_rhs0 (i : S5000x128.Idx) (q : DD.contr.Idx) : (DD.rhsIdx i q 0).val = (q ⟨0, by decide⟩).val :=
  DD.rhsIdx_val_of_single rfl i q

/-- … on the output's column. -/
theorem DD_rhs1 (i : S5000x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- A block product into the zero accumulator, at row `p` and column `q`: the sum over the 128 contracted
    positions of the left operand's row `p` times the right operand's column `q`. -/
theorem mm_apply {φ₁ φ₂ : FTy} (a : FVec Ideal S5000x128 φ₁) (w : FVec Ideal S128x128 φ₂) (p : Fin 5000) (q : Fin 128) :
    matmul DD none a w (constant (F := Ideal) S5000x128 .f32 0x00000000#32) (ix2 p q)
      = ∑ k : Fin 128, a (ix2 p k) * w (ix2 k q) := by
  show FloatOps.matmul DD none a w (constant (F := Ideal) S5000x128 .f32 0x00000000#32) (ix2 p q) = _
  rw [Ideal.matmul_constant_zero_apply, ← Equiv.sum_comp (ValueIdx.contrEquiv1 DD 128 rfl rfl).symm]
  refine Finset.sum_congr rfl fun k _ => ?_
  have hk := ValueIdx.contrEquiv1_symm_val DD 128 rfl rfl k
  have el : DD.lhsIdx (ix2 p q) ((ValueIdx.contrEquiv1 DD 128 rfl rfl).symm k) = ix2 p k :=
    funext fun a => Fin.ext (by
      match a with
      | ⟨0, _⟩ => exact DD_lhs0 _ _
      | ⟨1, _⟩ => exact (DD_lhs1 _ _).trans hk)
  have er : DD.rhsIdx (ix2 p q) ((ValueIdx.contrEquiv1 DD 128 rfl rfl).symm k) = ix2 k q :=
    funext fun a => Fin.ext (by
      match a with
      | ⟨0, _⟩ => exact (DD_rhs0 _ _).trans hk
      | ⟨1, _⟩ => exact DD_rhs1 _ _)
  rw [el, er]

/-- The bias row, viewed as a one-row matrix and repeated down the block, reads at `(p, q)` its entry `q`. -/
theorem bias_apply (b : FVec Ideal S128 .f32) (h1 : S128.ShapeCasts S1x128) (h2 : S1x128.Broadcasts S5000x128)
    (p : Fin 5000) (q : Fin 128) :
    broadcastTo S5000x128 (shapeCast S1x128 b h1) h2 (ix2 p q) = b (ix1 q) := by
  refine (broadcastTo_apply (shapeCast S1x128 b h1) h2 (ix2 p q) (ix2 (⟨0, Nat.one_pos⟩ : Fin 1) q) (fun a => ?_)).trans ?_
  · match a with
    | ⟨0, _⟩ => rfl
    | ⟨1, _⟩ => rfl
  · refine (shapeCast_addUnit_apply ![128] b h1 (ix2 (⟨0, Nat.one_pos⟩ : Fin 1) q)).trans ?_
    exact congrArg b (funext fun a => match a with | ⟨0, _⟩ => rfl)

end Cert.KernelIdeal.RegionValue

end
-- ==== Proof.PaySage.lean ====
/-
  The three layer bodies' arithmetic, read entry by entry.

  Each layer body computes, from a block of averaged rows `mean`, the same block of feature rows `feat`, the two
  weight matrices and the bias row,

      (mean · wl + bl) + feat · wr,

  the first two followed by the positive part.  A change of float format is the identity at the exact instance, so
  each body's stored value is, entry by entry, the layer of the specification applied to the loaded blocks.
-/
import proofs.«139408_j66992899883186_1_alg».proof.Proof.Spec
import proofs.«139408_j66992899883186_1_alg».proof.Proof.PayOps

noncomputable section

open scoped BigOperators

namespace Cert.KernelIdeal.RegionValue

open Cert.KernelIdeal Cert.KernelIdeal.Gen Idealize.ShloMosaic Idealize.ShloMosaic.ValueIdx

/-- The first layer's stored block is the layer with its positive part, applied to the loaded blocks. -/
theorem k0_pay1_eq (v0 v3 : Vec Ideal S5000x128 .f32) (v5 v8 : Vec Ideal S128x128 .f32) (v12 : Vec Ideal S128 .f32) :
    k0_pay1 (F := Ideal) v0 v3 v5 v8 v12 = Cert.Sage.relu (Cert.Sage.sage v0 v3 v5 v12 v8) := by
  funext j
  obtain ⟨p, q, rfl⟩ : ∃ (p : Fin 5000) (q : Fin 128), j = ix2 p q := ⟨j 0, j 1, eq_ix2 j⟩
  unfold k0_pay1
  rw [maximumf_apply, addf_apply, addf_apply, mm_apply, mm_apply, bias_apply, broadcast_apply]
  simp only [truncf_apply, shapeCast_self]
  rfl

/-- The second layer's stored block likewise. -/
theorem k1_pay1_eq (v0 v3 : Vec Ideal S5000x128 .f32) (v6 v9 : Vec Ideal S128x128 .f32) (v13 : Vec Ideal S128 .f32) :
    k1_pay1 (F := Ideal) v0 v3 v6 v9 v13 = Cert.Sage.relu (Cert.Sage.sage v0 v3 v6 v13 v9) := by
  funext j
  obtain ⟨p, q, rfl⟩ : ∃ (p : Fin 5000) (q : Fin 128), j = ix2 p q := ⟨j 0, j 1, eq_ix2 j⟩
  unfold k1_pay1
  rw [maximumf_apply, addf_apply, addf_apply, mm_apply, mm_apply, bias_apply, broadcast_apply]
  simp only [truncf_apply, shapeCast_self]
  rfl

/-- The third layer's stored block is the layer without the positive part. -/
theorem k2_pay1_eq (v0 v3 : Vec Ideal S5000x128 .f32) (v6 v9 : Vec Ideal S128x128 .f32) (v13 : Vec Ideal S128 .f32) :
    k2_pay1 (F := Ideal) v0 v3 v6 v9 v13 = Cert.Sage.sage v0 v3 v6 v13 v9 := by
  funext j
  obtain ⟨p, q, rfl⟩ : ∃ (p : Fin 5000) (q : Fin 128), j = ix2 p q := ⟨j 0, j 1, eq_ix2 j⟩
  unfold k2_pay1
  rw [addf_apply, addf_apply, mm_apply, mm_apply, bias_apply]
  simp only [truncf_apply, shapeCast_self]
  rfl

/-- BLOCKS AND THE TABLE.  If a block of 5000 rows holds rows `5000 T …` of the two tables (row `r` of the block is row
    `5000 T + r` of the table) and the weights and the bias are the same, then the layer on the block, at an entry of
    the block, is the layer on the tables at the entry `5000 T` rows further down. -/
theorem sage_block (mean feat : Cert.Sage.Mat 50000 128) (wl : Cert.Sage.Mat 128 128) (bl : Cert.Sage.Row 128)
    (wr : Cert.Sage.Mat 128 128) (x0 x1 : Cert.Sage.Mat 5000 128) (x2 : Cert.Sage.Mat 128 128) (x3 : Cert.Sage.Row 128)
    (x4 : Cert.Sage.Mat 128 128) (T : Nat)
    (h0 : ∀ (r : Fin 5000) (r' : Fin 50000) (k : Fin 128), r'.val = 5000 * T + r.val → x0 (ix2 r k) = mean (ix2 r' k))
    (h1 : ∀ (r : Fin 5000) (r' : Fin 50000) (k : Fin 128), r'.val = 5000 * T + r.val → x1 (ix2 r k) = feat (ix2 r' k))
    (h2 : x2 = wl) (h3 : x3 = bl) (h4 : x4 = wr)
    (j : (⟨2, ![5000, 128]⟩ : Shape).Idx) (i : (⟨2, ![50000, 128]⟩ : Shape).Idx)
    (hi0 : (i 0).val = 5000 * T + (j 0).val) (hi1 : (i 1).val = (j 1).val) :
    Cert.Sage.sage x0 x1 x2 x3 x4 j = Cert.Sage.sage mean feat wl bl wr i := by
  subst h2 h3 h4
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  obtain rfl : q' = q := Fin.ext hi1
  exact Cert.Sage.sage_row x0 x1 mean feat x2 x3 x4 p p' q' (fun k => h0 p p' k hi0) (fun k => h1 p p' k hi0)

/-- The same after the positive part. -/
theorem relu_sage_block (mean feat : Cert.Sage.Mat 50000 128) (wl : Cert.Sage.Mat 128 128) (bl : Cert.Sage.Row 128)
    (wr : Cert.Sage.Mat 128 128) (x0 x1 : Cert.Sage.Mat 5000 128) (x2 : Cert.Sage.Mat 128 128) (x3 : Cert.Sage.Row 128)
    (x4 : Cert.Sage.Mat 128 128) (T : Nat)
    (h0 : ∀ (r : Fin 5000) (r' : Fin 50000) (k : Fin 128), r'.val = 5000 * T + r.val → x0 (ix2 r k) = mean (ix2 r' k))
    (h1 : ∀ (r : Fin 5000) (r' : Fin 50000) (k : Fin 128), r'.val = 5000 * T + r.val → x1 (ix2 r k) = feat (ix2 r' k))
    (h2 : x2 = wl) (h3 : x3 = bl) (h4 : x4 = wr)
    (j : (⟨2, ![5000, 128]⟩ : Shape).Idx) (i : (⟨2, ![50000, 128]⟩ : Shape).Idx)
    (hi0 : (i 0).val = 5000 * T + (j 0).val) (hi1 : (i 1).val = (j 1).val) :
    Cert.Sage.relu (Cert.Sage.sage x0 x1 x2 x3 x4) j = Cert.Sage.relu (Cert.Sage.sage mean feat wl bl wr) i :=
  congrArg (fun x => max x Cert.Sage.zero) (sage_block mean feat wl bl wr x0 x1 x2 x3 x4 T h0 h1 h2 h3 h4 j i hi0 hi1)

end Cert.KernelIdeal.RegionValue

end
-- ==== Proof.Region0.lean ====
/-
  REGION 0: the first layer, whole array.

  The region runs its body at ten grid points.  Point `t` stages rows `5000 t … 5000 t + 4999` of the table of
  averages and of the feature table, and the two weight matrices and the bias whole; its body stores the layer of those
  blocks, which is written back as rows `5000 t …` of the result.  A layer's value on a row depends on that row of
  its two tables only, so what point `t` writes back is block `t` of the layer of the WHOLE tables; the ten blocks
  tile the result (row `r` lies in block `r / 5000`), so the result array ends as the layer of the tables the region
  found on entry.
-/
import proofs.«139408_j66992899883186_1_alg».proof.Proof.Gen.KernelIdeal.Frame
import proofs.«139408_j66992899883186_1_alg».proof.Proof.PaySage
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- Zero offsets, as the body's whole-buffer rectangles spell them. -/
theorem r0_hz2 : (![0, 0] : Fin 2 → Nat) = fun _ => 0 := funext fun a => by fin_cases a <;> rfl
theorem r0_hz1 : (![0] : Fin 1 → Nat) = fun _ => 0 := funext fun a => by fin_cases a; rfl

/-- The block each window stages at point `t`: the two tables and the result move down one block of rows per point,
    the weights and the bias stay at their one block. -/
theorem r0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the block of averages at point `t` is row `5000 t + r` of the table. -/
theorem r0_read0 (c : Dev nD) (t : Fin cfg0.N) (r : Fin 5000) (r' : Fin 50000) (k : Fin 128)
    (hr : r'.val = 5000 * t.val + r.val) :
    (iblk0 V c 0 t : Cert.Sage.Mat 5000 128) (ix2 r k) = (V c (Pipeline.arrRef spec0 0) : Cert.Sage.Mat 50000 128) (ix2 r' k) := by
  obtain ⟨e0, e1, -⟩ := r0_idx t
  unfold iblk0
  rw [View.read_apply]
  show V c (Pipeline.arrRef spec0 0) (((cfg0.win 0).blk t).view.emb (ix2 r k)) = V c (Pipeline.arrRef spec0 0) (ix2 r' k)
  refine congrArg _ (funext fun a => Fin.ext ?_)
  match a with
  | ⟨0, _⟩ => show win0_0.index t (0 : Fin 2) * 5000 + 1 * r.val = r'.val; rw [e0, hr]; omega
  | ⟨1, _⟩ => show win0_0.index t (1 : Fin 2) * 128 + 1 * k.val = k.val; rw [e1]; omega

/-- Row `r` of the block of features at point `t` is row `5000 t + r` of the table. -/
theorem r0_read1 (c : Dev nD) (t : Fin cfg0.N) (r : Fin 5000) (r' : Fin 50000) (k : Fin 128)
    (hr : r'.val = 5000 * t.val + r.val) :
    (iblk0 V c 1 t : Cert.Sage.Mat 5000 128) (ix2 r k) = (V c (Pipeline.arrRef spec0 1) : Cert.Sage.Mat 50000 128) (ix2 r' k) := by
  obtain ⟨-, -, e0, e1, -⟩ := r0_idx t
  unfold iblk0
  rw [View.read_apply]
  show V c (Pipeline.arrRef spec0 1) (((cfg0.win 1).blk t).view.emb (ix2 r k)) = V c (Pipeline.arrRef spec0 1) (ix2 r' k)
  refine congrArg _ (funext fun a => Fin.ext ?_)
  match a with
  | ⟨0, _⟩ => show win0_1.index t (0 : Fin 2) * 5000 + 1 * r.val = r'.val; rw [e0, hr]; omega
  | ⟨1, _⟩ => show win0_1.index t (1 : Fin 2) * 128 + 1 * k.val = k.val; rw [e1]; omega

/-- The first weight matrix's one block is the matrix. -/
theorem r0_whole2 (c : Dev nD) (t : Fin cfg0.N) :
    (iblk0 V c 2 t : Cert.Sage.Mat 128 128) = V c (Pipeline.arrRef spec0 2) := by
  obtain ⟨-, -, -, -, e0, e1, -⟩ := r0_idx t
  funext y
  unfold iblk0
  rw [View.read_apply]
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's one block is the row. -/
theorem r0_whole3 (c : Dev nD) (t : Fin cfg0.N) :
    (iblk0 V c 3 t : Cert.Sage.Row 128) = V c (Pipeline.arrRef spec0 3) := by
  obtain ⟨-, -, -, -, -, -, e0, -⟩ := r0_idx t
  funext y
  unfold iblk0
  rw [View.read_apply]
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 1) * 128 + 1 * (y 0).val = (y 0).val; rw [e0]; omega

/-- The second weight matrix's one block is the matrix. -/
theorem r0_whole4 (c : Dev nD) (t : Fin cfg0.N) :
    (iblk0 V c 4 t : Cert.Sage.Mat 128 128) = V c (Pipeline.arrRef spec0 4) := by
  obtain ⟨-, -, -, -, -, -, -, e0, e1, -⟩ := r0_idx t
  funext y
  unfold iblk0
  rw [View.read_apply]
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- WHAT POINT `t` WRITES BACK is block `t` of the layer of the tables as the region finds them. -/
theorem r0_flushed (c : Dev nD) (t : Fin cfg0.N) :
    (dat0 V c).flushed 5 t = ((cfg0.win 5).blk t).view.read (Elt Ideal)
      (Cert.Sage.relu (Cert.Sage.sage (V c (Pipeline.arrRef spec0 0)) (V c (Pipeline.arrRef spec0 1)) (V c (Pipeline.arrRef spec0 2)) (V c (Pipeline.arrRef spec0 3)) (V c (Pipeline.arrRef spec0 4)))) := by
  show (cfg0.win 5).cut (grid0.coords t) ((dat0 V c).after 5 t) = _
  rw [after0_5]
  unfold out0_5
  rw [View.canon_unit_zero r0_hz2]
  simp only [View.ld_unit_zero (S := S5000x128) r0_hz2, View.ld_unit_zero (S := S128x128) r0_hz2,
    View.ld_unit_zero (S := S128) r0_hz1]
  rw [k0_pay1_eq]
  obtain ⟨-, -, -, -, -, -, -, -, -, e0, e1⟩ := r0_idx t
  funext j
  rw [View.read_apply]
  show Cert.Sage.relu (Cert.Sage.sage (iblk0 V c 0 t) (iblk0 V c 1 t) (iblk0 V c 2 t) (iblk0 V c 3 t) (iblk0 V c 4 t)) ((cfg0.win 5).xinj (grid0.coords t) j)
    = Cert.Sage.relu (Cert.Sage.sage (V c (Pipeline.arrRef spec0 0)) (V c (Pipeline.arrRef spec0 1)) (V c (Pipeline.arrRef spec0 2)) (V c (Pipeline.arrRef spec0 3)) (V c (Pipeline.arrRef spec0 4))) (((cfg0.win 5).blk t).view.emb j)
  refine relu_sage_block (V c (Pipeline.arrRef spec0 0)) (V c (Pipeline.arrRef spec0 1)) (V c (Pipeline.arrRef spec0 2)) (V c (Pipeline.arrRef spec0 3)) (V c (Pipeline.arrRef spec0 4)) (iblk0 V c 0 t) (iblk0 V c 1 t) (iblk0 V c 2 t) (iblk0 V c 3 t) (iblk0 V c 4 t) t.val
    (fun r r' k hr => r0_read0 V c t r r' k hr) (fun r r' k hr => r0_read1 V c t r r' k hr)
    (r0_whole2 V c t) (r0_whole3 V c t) (r0_whole4 V c t)
    ((cfg0.win 5).xinj (grid0.coords t) j) (((cfg0.win 5).blk t).view.emb j) ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An index of the result is in point `t`'s block iff each coordinate is in the block's range on its axis. -/
theorem r0_mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- The ten blocks tile the result: row `r` lies in the block of point `r / 5000`. -/
theorem r0_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  obtain ⟨-, -, -, -, -, -, -, -, -, e0, e1⟩ := r0_idx ⟨(i 0).val / 5000, by rw [hN]; omega⟩
  rw [r0_mem_blk]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- THE RESULT ARRAY after the region: the layer of the tables, weights and bias as the region found them. -/
theorem final0 (c : Dev nD) :
    (dat0 V c).arrAt 5 cfg0.N
      = Cert.Sage.relu (Cert.Sage.sage (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 5 _ (fun t _ => r0_flushed V c t) r0_cover

end Cert.KernelIdeal.RegionValue

end
-- ==== Proof.Region1.lean ====
/-
  REGION 1: the second layer, whole array.

  The region runs its body at ten grid points.  Point `t` stages rows `5000 t … 5000 t + 4999` of the table of
  averages and of the feature table, and the two weight matrices and the bias whole; its body stores the layer of those
  blocks, which is written back as rows `5000 t …` of the result.  A layer's value on a row depends on that row of
  its two tables only, so what point `t` writes back is block `t` of the layer of the WHOLE tables; the ten blocks
  tile the result (row `r` lies in block `r / 5000`), so the result array ends as the layer of the tables the region
  found on entry.
-/
import proofs.«139408_j66992899883186_1_alg».proof.Proof.Gen.KernelIdeal.Frame
import proofs.«139408_j66992899883186_1_alg».proof.Proof.PaySage
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- Zero offsets, as the body's whole-buffer rectangles spell them. -/
theorem r1_hz2 : (![0, 0] : Fin 2 → Nat) = fun _ => 0 := funext fun a => by fin_cases a <;> rfl
theorem r1_hz1 : (![0] : Fin 1 → Nat) = fun _ => 0 := funext fun a => by fin_cases a; rfl

/-- The block each window stages at point `t`: the two tables and the result move down one block of rows per point,
    the weights and the bias stay at their one block. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the block of averages at point `t` is row `5000 t + r` of the table. -/
theorem r1_read0 (c : Dev nD) (t : Fin cfg1.N) (r : Fin 5000) (r' : Fin 50000) (k : Fin 128)
    (hr : r'.val = 5000 * t.val + r.val) :
    (iblk1 V c 0 t : Cert.Sage.Mat 5000 128) (ix2 r k) = (V c (Pipeline.arrRef spec1 0) : Cert.Sage.Mat 50000 128) (ix2 r' k) := by
  obtain ⟨e0, e1, -⟩ := r1_idx t
  unfold iblk1
  rw [View.read_apply]
  show V c (Pipeline.arrRef spec1 0) (((cfg1.win 0).blk t).view.emb (ix2 r k)) = V c (Pipeline.arrRef spec1 0) (ix2 r' k)
  refine congrArg _ (funext fun a => Fin.ext ?_)
  match a with
  | ⟨0, _⟩ => show win1_0.index t (0 : Fin 2) * 5000 + 1 * r.val = r'.val; rw [e0, hr]; omega
  | ⟨1, _⟩ => show win1_0.index t (1 : Fin 2) * 128 + 1 * k.val = k.val; rw [e1]; omega

/-- Row `r` of the block of features at point `t` is row `5000 t + r` of the table. -/
theorem r1_read1 (c : Dev nD) (t : Fin cfg1.N) (r : Fin 5000) (r' : Fin 50000) (k : Fin 128)
    (hr : r'.val = 5000 * t.val + r.val) :
    (iblk1 V c 1 t : Cert.Sage.Mat 5000 128) (ix2 r k) = (V c (Pipeline.arrRef spec1 1) : Cert.Sage.Mat 50000 128) (ix2 r' k) := by
  obtain ⟨-, -, e0, e1, -⟩ := r1_idx t
  unfold iblk1
  rw [View.read_apply]
  show V c (Pipeline.arrRef spec1 1) (((cfg1.win 1).blk t).view.emb (ix2 r k)) = V c (Pipeline.arrRef spec1 1) (ix2 r' k)
  refine congrArg _ (funext fun a => Fin.ext ?_)
  match a with
  | ⟨0, _⟩ => show win1_1.index t (0 : Fin 2) * 5000 + 1 * r.val = r'.val; rw [e0, hr]; omega
  | ⟨1, _⟩ => show win1_1.index t (1 : Fin 2) * 128 + 1 * k.val = k.val; rw [e1]; omega

/-- The first weight matrix's one block is the matrix. -/
theorem r1_whole2 (c : Dev nD) (t : Fin cfg1.N) :
    (iblk1 V c 2 t : Cert.Sage.Mat 128 128) = V c (Pipeline.arrRef spec1 2) := by
  obtain ⟨-, -, -, -, e0, e1, -⟩ := r1_idx t
  funext y
  unfold iblk1
  rw [View.read_apply]
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's one block is the row. -/
theorem r1_whole3 (c : Dev nD) (t : Fin cfg1.N) :
    (iblk1 V c 3 t : Cert.Sage.Row 128) = V c (Pipeline.arrRef spec1 3) := by
  obtain ⟨-, -, -, -, -, -, e0, -⟩ := r1_idx t
  funext y
  unfold iblk1
  rw [View.read_apply]
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 1) * 128 + 1 * (y 0).val = (y 0).val; rw [e0]; omega

/-- The second weight matrix's one block is the matrix. -/
theorem r1_whole4 (c : Dev nD) (t : Fin cfg1.N) :
    (iblk1 V c 4 t : Cert.Sage.Mat 128 128) = V c (Pipeline.arrRef spec1 4) := by
  obtain ⟨-, -, -, -, -, -, -, e0, e1, -⟩ := r1_idx t
  funext y
  unfold iblk1
  rw [View.read_apply]
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- WHAT POINT `t` WRITES BACK is block `t` of the layer of the tables as the region finds them. -/
theorem r1_flushed (c : Dev nD) (t : Fin cfg1.N) :
    (dat1 V c).flushed 5 t = ((cfg1.win 5).blk t).view.read (Elt Ideal)
      (Cert.Sage.relu (Cert.Sage.sage (V c (Pipeline.arrRef spec1 0)) (V c (Pipeline.arrRef spec1 1)) (V c (Pipeline.arrRef spec1 2)) (V c (Pipeline.arrRef spec1 3)) (V c (Pipeline.arrRef spec1 4)))) := by
  show (cfg1.win 5).cut (grid1.coords t) ((dat1 V c).after 5 t) = _
  rw [after1_5]
  unfold out1_5
  rw [View.canon_unit_zero r1_hz2]
  simp only [View.ld_unit_zero (S := S5000x128) r1_hz2, View.ld_unit_zero (S := S128x128) r1_hz2,
    View.ld_unit_zero (S := S128) r1_hz1]
  rw [k1_pay1_eq]
  obtain ⟨-, -, -, -, -, -, -, -, -, e0, e1⟩ := r1_idx t
  funext j
  rw [View.read_apply]
  show Cert.Sage.relu (Cert.Sage.sage (iblk1 V c 0 t) (iblk1 V c 1 t) (iblk1 V c 2 t) (iblk1 V c 3 t) (iblk1 V c 4 t)) ((cfg1.win 5).xinj (grid1.coords t) j)
    = Cert.Sage.relu (Cert.Sage.sage (V c (Pipeline.arrRef spec1 0)) (V c (Pipeline.arrRef spec1 1)) (V c (Pipeline.arrRef spec1 2)) (V c (Pipeline.arrRef spec1 3)) (V c (Pipeline.arrRef spec1 4))) (((cfg1.win 5).blk t).view.emb j)
  refine relu_sage_block (V c (Pipeline.arrRef spec1 0)) (V c (Pipeline.arrRef spec1 1)) (V c (Pipeline.arrRef spec1 2)) (V c (Pipeline.arrRef spec1 3)) (V c (Pipeline.arrRef spec1 4)) (iblk1 V c 0 t) (iblk1 V c 1 t) (iblk1 V c 2 t) (iblk1 V c 3 t) (iblk1 V c 4 t) t.val
    (fun r r' k hr => r1_read0 V c t r r' k hr) (fun r r' k hr => r1_read1 V c t r r' k hr)
    (r1_whole2 V c t) (r1_whole3 V c t) (r1_whole4 V c t)
    ((cfg1.win 5).xinj (grid1.coords t) j) (((cfg1.win 5).blk t).view.emb j) ?_ ?_
  · show win1_5.index t (0 : Fin 2) * 5000 + 1 * (j 0).val = 5000 * t.val + (j 0).val
    rw [e0]; omega
  · show win1_5.index t (1 : Fin 2) * 128 + 1 * (j 1).val = (j 1).val
    rw [e1]; omega

/-- An index of the result is in point `t`'s block iff each coordinate is in the block's range on its axis. -/
theorem r1_mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- The ten blocks tile the result: row `r` lies in the block of point `r / 5000`. -/
theorem r1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  obtain ⟨-, -, -, -, -, -, -, -, -, e0, e1⟩ := r1_idx ⟨(i 0).val / 5000, by rw [hN]; omega⟩
  rw [r1_mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE RESULT ARRAY after the region: the layer of the tables, weights and bias as the region found them. -/
theorem final1 (c : Dev nD) :
    (dat1 V c).arrAt 5 cfg1.N
      = Cert.Sage.relu (Cert.Sage.sage (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 5 _ (fun t _ => r1_flushed V c t) r1_cover

end Cert.KernelIdeal.RegionValue

end
-- ==== Proof.KChain2.lean ====
/-
  The first two layers.

  Region 0 leaves in its result array the first layer of the tables it found on entry; those are the input table and its
  neighbourhood averages, so the array holds the first layer's table `z1`.  A region leaves every buffer that is not one
  of its arrays as it was, and the next stretch of host operations computes the averages of `z1` over the same edges;
  region 1 then leaves the second layer's table `z2`.
-/
import proofs.«139408_j66992899883186_1_alg».proof.Proof.KChain1
import proofs.«139408_j66992899883186_1_alg».proof.Proof.Region0
import proofs.«139408_j66992899883186_1_alg».proof.Proof.Region1
import Idealize.ShloMosaic.Lib.StableHlo.Run

set_option maxRecDepth 16384

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- A region leaves a buffer that is not one of its arrays as it found it. -/
macro "region_keeps" l:ident : tactic => `(tactic| refine Eq.trans ($l:ident _ _ _ _ (by decide)) ?_)

/-- The first layer's table. -/
def z1 (c : Dev nD) : Mat 50000 128 :=
  relu (sage (agg (aE m c) (aX m c)) (aX m c) (tr (aWl1 m c)) (abl1 m c) (tr (aWr1 m c)))
/-- The second layer's table. -/
def z2 (c : Dev nD) : Mat 50000 128 :=
  relu (sage (agg (aE m c) (z1 m c)) (z1 m c) (tr (aWl2 m c)) (abl2 m c) (tr (aWr2 m c)))

/-! ## At region 0's exit -/

theorem W2_v29 (c : Dev nD) : W2 m ρ c (Proc.devRef .tc main_v29) = z1 m c := by
  refine (W2_arr m ρ c 5).trans ?_
  rw [Cert.KernelIdeal.RegionValue.final0 (V1 m ρ) c]
  have h0 : V1 m ρ c (Pipeline.arrRef spec0 0) = agg (aE m c) (aX m c) := W1_v28 m ρ c
  have h1 : V1 m ρ c (Pipeline.arrRef spec0 1) = aX m c := W1_arg0 m ρ c
  have h2 : V1 m ρ c (Pipeline.arrRef spec0 2) = tr (aWl1 m c) := W1_v4 m ρ c
  have h3 : V1 m ρ c (Pipeline.arrRef spec0 3) = abl1 m c := W1_arg4 m ρ c
  have h4 : V1 m ρ c (Pipeline.arrRef spec0 4) = tr (aWr1 m c) := W1_v5 m ρ c
  rw [h0, h1, h2, h3, h4]; rfl
theorem W2_v1 (c : Dev nD) : W2 m ρ c (Proc.devRef .tc main_v1) = srcOf (aE m c) := by
  region_keeps W2_of_ne; exact W1_v1 m ρ c
theorem W2_v3 (c : Dev nD) : W2 m ρ c (Proc.devRef .tc main_v3) = dstOf (aE m c) := by
  region_keeps W2_of_ne; exact W1_v3 m ρ c

/-! ## After the second stretch -/

theorem W3_v48 (c : Dev nD) : W3 m ρ c (Proc.devRef .tc main_v48) = agg (aE m c) (z1 m c) := by
  have raw : W3 m ρ c (Proc.devRef .tc main_v48)
      = aggSD (W2 m ρ c (Proc.devRef .tc main_v1)) (W2 m ρ c (Proc.devRef .tc main_v3)) (W2 m ρ c (Proc.devRef .tc main_v29)) := by
    show StableHlo.after hostOps1 (W2 m ρ c) (Proc.devRef .tc main_v48) = _
    after_results_simp; rfl
  rw [raw, W2_v1, W2_v3, W2_v29]; rfl
theorem W3_v29 (c : Dev nD) : W3 m ρ c (Proc.devRef .tc main_v29) = z1 m c := by
  host_keeps hostOps1; exact W2_v29 m ρ c
theorem W3_v6 (c : Dev nD) : W3 m ρ c (Proc.devRef .tc main_v6) = tr (aWl2 m c) := by
  host_keeps hostOps1; region_keeps W2_of_ne; exact W1_v6 m ρ c
theorem W3_v7 (c : Dev nD) : W3 m ρ c (Proc.devRef .tc main_v7) = tr (aWr2 m c) := by
  host_keeps hostOps1; region_keeps W2_of_ne; exact W1_v7 m ρ c
theorem W3_arg7 (c : Dev nD) : W3 m ρ c (Proc.devRef .tc main_arg7) = abl2 m c := by
  host_keeps hostOps1; region_keeps W2_of_ne; host_keeps hostOps0; rfl

/-! ## At region 1's exit -/

theorem W4_v49 (c : Dev nD) : W4 m ρ c (Proc.devRef .tc main_v49) = z2 m c := by
  refine (W4_arr m ρ c 5).trans ?_
  rw [Cert.KernelIdeal.RegionValue.final1 (V3 m ρ) c]
  have h0 : V3 m ρ c (Pipeline.arrRef spec1 0) = agg (aE m c) (z1 m c) := W3_v48 m ρ c
  have h1 : V3 m ρ c (Pipeline.arrRef spec1 1) = z1 m c := W3_v29 m ρ c
  have h2 : V3 m ρ c (Pipeline.arrRef spec1 2) = tr (aWl2 m c) := W3_v6 m ρ c
  have h3 : V3 m ρ c (Pipeline.arrRef spec1 3) = abl2 m c := W3_arg7 m ρ c
  have h4 : V3 m ρ c (Pipeline.arrRef spec1 4) = tr (aWr2 m c) := W3_v7 m ρ c
  rw [h0, h1, h2, h3, h4]; rfl
theorem W4_v1 (c : Dev nD) : W4 m ρ c (Proc.devRef .tc main_v1) = srcOf (aE m c) := by
  region_keeps W4_of_ne; host_keeps hostOps1; exact W2_v1 m ρ c
theorem W4_v3 (c : Dev nD) : W4 m ρ c (Proc.devRef .tc main_v3) = dstOf (aE m c) := by
  region_keeps W4_of_ne; host_keeps hostOps1; exact W2_v3 m ρ c
theorem W4_v8 (c : Dev nD) : W4 m ρ c (Proc.devRef .tc main_v8) = tr (aWl3 m c) := by
  region_keeps W4_of_ne; host_keeps hostOps1; region_keeps W2_of_ne; exact W1_v8 m ρ c
theorem W4_v9 (c : Dev nD) : W4 m ρ c (Proc.devRef .tc main_v9) = tr (aWr3 m c) := by
  region_keeps W4_of_ne; host_keeps hostOps1; region_keeps W2_of_ne; exact W1_v9 m ρ c
theorem W4_arg10 (c : Dev nD) : W4 m ρ c (Proc.devRef .tc main_arg10) = abl3 m c := by
  region_keeps W4_of_ne; host_keeps hostOps1; region_keeps W2_of_ne; host_keeps hostOps0; rfl

end Cert.KernelIdeal.Chain

end
-- ==== Proof.Region2.lean ====
/-
  REGION 2: the third layer (no positive part), whole array.

  The region runs its body at ten grid points.  Point `t` stages rows `5000 t … 5000 t + 4999` of the table of
  averages and of the feature table, and the two weight matrices and the bias whole; its body stores the layer of those
  blocks, which is written back as rows `5000 t …` of the result.  A layer's value on a row depends on that row of
  its two tables only, so what point `t` writes back is block `t` of the layer of the WHOLE tables; the ten blocks
  tile the result (row `r` lies in block `r / 5000`), so the result array ends as the layer of the tables the region
  found on entry.
-/
import proofs.«139408_j66992899883186_1_alg».proof.Proof.Gen.KernelIdeal.Frame
import proofs.«139408_j66992899883186_1_alg».proof.Proof.PaySage
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- Zero offsets, as the body's whole-buffer rectangles spell them. -/
theorem r2_hz2 : (![0, 0] : Fin 2 → Nat) = fun _ => 0 := funext fun a => by fin_cases a <;> rfl
theorem r2_hz1 : (![0] : Fin 1 → Nat) = fun _ => 0 := funext fun a => by fin_cases a; rfl

/-- The block each window stages at point `t`: the two tables and the result move down one block of rows per point,
    the weights and the bias stay at their one block. -/
theorem r2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of the block of averages at point `t` is row `5000 t + r` of the table. -/
theorem r2_read0 (c : Dev nD) (t : Fin cfg2.N) (r : Fin 5000) (r' : Fin 50000) (k : Fin 128)
    (hr : r'.val = 5000 * t.val + r.val) :
    (iblk2 V c 0 t : Cert.Sage.Mat 5000 128) (ix2 r k) = (V c (Pipeline.arrRef spec2 0) : Cert.Sage.Mat 50000 128) (ix2 r' k) := by
  obtain ⟨e0, e1, -⟩ := r2_idx t
  unfold iblk2
  rw [View.read_apply]
  show V c (Pipeline.arrRef spec2 0) (((cfg2.win 0).blk t).view.emb (ix2 r k)) = V c (Pipeline.arrRef spec2 0) (ix2 r' k)
  refine congrArg _ (funext fun a => Fin.ext ?_)
  match a with
  | ⟨0, _⟩ => show win2_0.index t (0 : Fin 2) * 5000 + 1 * r.val = r'.val; rw [e0, hr]; omega
  | ⟨1, _⟩ => show win2_0.index t (1 : Fin 2) * 128 + 1 * k.val = k.val; rw [e1]; omega

/-- Row `r` of the block of features at point `t` is row `5000 t + r` of the table. -/
theorem r2_read1 (c : Dev nD) (t : Fin cfg2.N) (r : Fin 5000) (r' : Fin 50000) (k : Fin 128)
    (hr : r'.val = 5000 * t.val + r.val) :
    (iblk2 V c 1 t : Cert.Sage.Mat 5000 128) (ix2 r k) = (V c (Pipeline.arrRef spec2 1) : Cert.Sage.Mat 50000 128) (ix2 r' k) := by
  obtain ⟨-, -, e0, e1, -⟩ := r2_idx t
  unfold iblk2
  rw [View.read_apply]
  show V c (Pipeline.arrRef spec2 1) (((cfg2.win 1).blk t).view.emb (ix2 r k)) = V c (Pipeline.arrRef spec2 1) (ix2 r' k)
  refine congrArg _ (funext fun a => Fin.ext ?_)
  match a with
  | ⟨0, _⟩ => show win2_1.index t (0 : Fin 2) * 5000 + 1 * r.val = r'.val; rw [e0, hr]; omega
  | ⟨1, _⟩ => show win2_1.index t (1 : Fin 2) * 128 + 1 * k.val = k.val; rw [e1]; omega

/-- The first weight matrix's one block is the matrix. -/
theorem r2_whole2 (c : Dev nD) (t : Fin cfg2.N) :
    (iblk2 V c 2 t : Cert.Sage.Mat 128 128) = V c (Pipeline.arrRef spec2 2) := by
  obtain ⟨-, -, -, -, e0, e1, -⟩ := r2_idx t
  funext y
  unfold iblk2
  rw [View.read_apply]
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The bias row's one block is the row. -/
theorem r2_whole3 (c : Dev nD) (t : Fin cfg2.N) :
    (iblk2 V c 3 t : Cert.Sage.Row 128) = V c (Pipeline.arrRef spec2 3) := by
  obtain ⟨-, -, -, -, -, -, e0, -⟩ := r2_idx t
  funext y
  unfold iblk2
  rw [View.read_apply]
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 1) * 128 + 1 * (y 0).val = (y 0).val; rw [e0]; omega

/-- The second weight matrix's one block is the matrix. -/
theorem r2_whole4 (c : Dev nD) (t : Fin cfg2.N) :
    (iblk2 V c 4 t : Cert.Sage.Mat 128 128) = V c (Pipeline.arrRef spec2 4) := by
  obtain ⟨-, -, -, -, -, -, -, e0, e1, -⟩ := r2_idx t
  funext y
  unfold iblk2
  rw [View.read_apply]
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- WHAT POINT `t` WRITES BACK is block `t` of the layer of the tables as the region finds them. -/
theorem r2_flushed (c : Dev nD) (t : Fin cfg2.N) :
    (dat2 V c).flushed 5 t = ((cfg2.win 5).blk t).view.read (Elt Ideal)
      (Cert.Sage.sage (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero r2_hz2]
  simp only [View.ld_unit_zero (S := S5000x128) r2_hz2, View.ld_unit_zero (S := S128x128) r2_hz2,
    View.ld_unit_zero (S := S128) r2_hz1]
  rw [k2_pay1_eq]
  obtain ⟨-, -, -, -, -, -, -, -, -, e0, e1⟩ := r2_idx t
  funext j
  rw [View.read_apply]
  show Cert.Sage.sage (iblk2 V c 0 t) (iblk2 V c 1 t) (iblk2 V c 2 t) (iblk2 V c 3 t) (iblk2 V c 4 t) ((cfg2.win 5).xinj (grid2.coords t) j)
    = Cert.Sage.sage (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  refine sage_block (V c (Pipeline.arrRef spec2 0)) (V c (Pipeline.arrRef spec2 1)) (V c (Pipeline.arrRef spec2 2)) (V c (Pipeline.arrRef spec2 3)) (V c (Pipeline.arrRef spec2 4)) (iblk2 V c 0 t) (iblk2 V c 1 t) (iblk2 V c 2 t) (iblk2 V c 3 t) (iblk2 V c 4 t) t.val
    (fun r r' k hr => r2_read0 V c t r r' k hr) (fun r r' k hr => r2_read1 V c t r r' k hr)
    (r2_whole2 V c t) (r2_whole3 V c t) (r2_whole4 V c t)
    ((cfg2.win 5).xinj (grid2.coords t) j) (((cfg2.win 5).blk t).view.emb j) ?_ ?_
  · show win2_5.index t (0 : Fin 2) * 5000 + 1 * (j 0).val = 5000 * t.val + (j 0).val
    rw [e0]; omega
  · show win2_5.index t (1 : Fin 2) * 128 + 1 * (j 1).val = (j 1).val
    rw [e1]; omega

/-- An index of the result is in point `t`'s block iff each coordinate is in the block's range on its axis. -/
theorem r2_mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- The ten blocks tile the result: row `r` lies in the block of point `r / 5000`. -/
theorem r2_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  obtain ⟨-, -, -, -, -, -, -, -, -, e0, e1⟩ := r2_idx ⟨(i 0).val / 5000, by rw [hN]; omega⟩
  rw [r2_mem_blk]
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- THE RESULT ARRAY after the region: the layer of the tables, weights and bias as the region found them. -/
theorem final2 (c : Dev nD) :
    (dat2 V c).arrAt 5 cfg2.N
      = Cert.Sage.sage (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => r2_flushed V c t) r2_cover

end Cert.KernelIdeal.RegionValue

end
-- ==== Proof.KChain3.lean ====
/-
  The third layer, and what the decoder will need.

  The third stretch of host operations computes the neighbourhood averages of the second layer's table over the same
  edges, and region 2 leaves the third layer's table `z3` (this layer has no positive part).  The query array and the
  decoder's weights and biases are argument arrays that nothing has written so far, so at region 2's exit they still
  hold what the launch memory held.
-/
import proofs.«139408_j66992899883186_1_alg».proof.Proof.KChain2
import proofs.«139408_j66992899883186_1_alg».proof.Proof.Region2
import Idealize.ShloMosaic.Lib.StableHlo.Run

set_option maxRecDepth 16384

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The third layer's table. -/
def z3 (c : Dev nD) : Mat 50000 128 :=
  sage (agg (aE m c) (z2 m c)) (z2 m c) (tr (aWl3 m c)) (abl3 m c) (tr (aWr3 m c))

/-! ## After the third stretch -/

theorem W5_v68 (c : Dev nD) : W5 m ρ c (Proc.devRef .tc main_v68) = agg (aE m c) (z2 m c) := by
  have raw : W5 m ρ c (Proc.devRef .tc main_v68)
      = aggSD (W4 m ρ c (Proc.devRef .tc main_v1)) (W4 m ρ c (Proc.devRef .tc main_v3)) (W4 m ρ c (Proc.devRef .tc main_v49)) := by
    show StableHlo.after hostOps2 (W4 m ρ c) (Proc.devRef .tc main_v68) = _
    after_results_simp; rfl
  rw [raw, W4_v1, W4_v3, W4_v49]; rfl
theorem W5_v49 (c : Dev nD) : W5 m ρ c (Proc.devRef .tc main_v49) = z2 m c := by
  host_keeps hostOps2; exact W4_v49 m ρ c
theorem W5_v8 (c : Dev nD) : W5 m ρ c (Proc.devRef .tc main_v8) = tr (aWl3 m c) := by
  host_keeps hostOps2; exact W4_v8 m ρ c
theorem W5_v9 (c : Dev nD) : W5 m ρ c (Proc.devRef .tc main_v9) = tr (aWr3 m c) := by
  host_keeps hostOps2; exact W4_v9 m ρ c
theorem W5_arg10 (c : Dev nD) : W5 m ρ c (Proc.devRef .tc main_arg10) = abl3 m c := by
  host_keeps hostOps2; exact W4_arg10 m ρ c

/-! ## At region 2's exit -/

theorem W6_v69 (c : Dev nD) : W6 m ρ c (Proc.devRef .tc main_v69) = z3 m c := by
  refine (W6_arr m ρ c 5).trans ?_
  rw [Cert.KernelIdeal.RegionValue.final2 (V5 m ρ) c]
  have h0 : V5 m ρ c (Pipeline.arrRef spec2 0) = agg (aE m c) (z2 m c) := W5_v68 m ρ c
  have h1 : V5 m ρ c (Pipeline.arrRef spec2 1) = z2 m c := W5_v49 m ρ c
  have h2 : V5 m ρ c (Pipeline.arrRef spec2 2) = tr (aWl3 m c) := W5_v8 m ρ c
  have h3 : V5 m ρ c (Pipeline.arrRef spec2 3) = abl3 m c := W5_arg10 m ρ c
  have h4 : V5 m ρ c (Pipeline.arrRef spec2 4) = tr (aWr3 m c) := W5_v9 m ρ c
  rw [h0, h1, h2, h3, h4]; rfl

/-! ## The decoder's arguments, untouched so far -/

theorem W6_arg2 (c : Dev nD) : W6 m ρ c (Proc.devRef .tc main_arg2) = aQ m c := by
  region_keeps W6_of_ne; host_keeps hostOps2; region_keeps W4_of_ne; host_keeps hostOps1; region_keeps W2_of_ne; host_keeps hostOps0; rfl
theorem W6_arg12 (c : Dev nD) : W6 m ρ c (Proc.devRef .tc main_arg12) = aWd1 m c := by
  region_keeps W6_of_ne; host_keeps hostOps2; region_keeps W4_of_ne; host_keeps hostOps1; region_keeps W2_of_ne; host_keeps hostOps0; rfl
theorem W6_arg13 (c : Dev nD) : W6 m ρ c (Proc.devRef .tc main_arg13) = abd1 m c := by
  region_keeps W6_of_ne; host_keeps hostOps2; region_keeps W4_of_ne; host_keeps hostOps1; region_keeps W2_of_ne; host_keeps hostOps0; rfl
theorem W6_arg14 (c : Dev nD) : W6 m ρ c (Proc.devRef .tc main_arg14) = aWd2 m c := by
  region_keeps W6_of_ne; host_keeps hostOps2; region_keeps W4_of_ne; host_keeps hostOps1; region_keeps W2_of_ne; host_keeps hostOps0; rfl
theorem W6_arg15 (c : Dev nD) : W6 m ρ c (Proc.devRef .tc main_arg15) = abd2 m c := by
  region_keeps W6_of_ne; host_keeps hostOps2; region_keeps W4_of_ne; host_keeps hostOps1; region_keeps W2_of_ne; host_keeps hostOps0; rfl
theorem W6_arg16 (c : Dev nD) : W6 m ρ c (Proc.devRef .tc main_arg16) = aWd3 m c := by
  region_keeps W6_of_ne; host_keeps hostOps2; region_keeps W4_of_ne; host_keeps hostOps1; region_keeps W2_of_ne; host_keeps hostOps0; rfl
theorem W6_arg17 (c : Dev nD) : W6 m ρ c (Proc.devRef .tc main_arg17) = abd3 m c := by
  region_keeps W6_of_ne; host_keeps hostOps2; region_keeps W4_of_ne; host_keeps hostOps1; region_keeps W2_of_ne; host_keeps hostOps0; rfl

end Cert.KernelIdeal.Chain

end
-- ==== Proof.PayDec.lean ====
/-
  The decoder body's arithmetic, read entry by entry.

  The body multiplies its two blocks of gathered rows entry by entry and applies three affine maps, the first two
  followed by the positive part.  Every step acts on each row by itself, so the value on a row depends on that row of
  the two gathered tables only.
-/
import proofs.«139408_j66992899883186_1_alg».proof.Proof.Spec
import proofs.«139408_j66992899883186_1_alg».proof.Proof.PayOps

noncomputable section

open scoped BigOperators

namespace Cert.KernelIdeal.RegionValue

open Cert.KernelIdeal Cert.KernelIdeal.Gen Idealize.ShloMosaic Idealize.ShloMosaic.ValueIdx

/-- An affine map's value on a row depends on that row of its argument only. -/
theorem lin_row {n n' p : Nat} (a : Cert.Sage.Mat n 128) (a' : Cert.Sage.Mat n' 128) (w : Cert.Sage.Mat 128 p) (b : Cert.Sage.Row p)
    (r : Fin n) (r' : Fin n') (q : Fin p) (h : ∀ k : Fin 128, a (ix2 r k) = a' (ix2 r' k)) :
    Cert.Sage.lin a w b (ix2 r q) = Cert.Sage.lin a' w b (ix2 r' q) := by
  unfold Cert.Sage.lin
  show (∑ k : Fin 128, a (ix2 r k) * w (ix2 k q)) + b (ix1 q) = (∑ k : Fin 128, a' (ix2 r' k) * w (ix2 k q)) + b (ix1 q)
  simp only [h]

/-- So does the decoder's: its value on a row depends on that row of the two gathered tables only. -/
theorem dec_row {n n' p : Nat} (qs qd : Cert.Sage.Mat n 128) (qs' qd' : Cert.Sage.Mat n' 128)
    (w1 : Cert.Sage.Mat 128 128) (b1 : Cert.Sage.Row 128) (w2 : Cert.Sage.Mat 128 128) (b2 : Cert.Sage.Row 128)
    (w3 : Cert.Sage.Mat 128 p) (b3 : Cert.Sage.Row p) (r : Fin n) (r' : Fin n') (q : Fin p)
    (hs : ∀ k : Fin 128, qs (ix2 r k) = qs' (ix2 r' k)) (hd : ∀ k : Fin 128, qd (ix2 r k) = qd' (ix2 r' k)) :
    Cert.Sage.dec qs qd w1 b1 w2 b2 w3 b3 (ix2 r q) = Cert.Sage.dec qs' qd' w1 b1 w2 b2 w3 b3 (ix2 r' q) := by
  unfold Cert.Sage.dec
  refine lin_row _ _ w3 b3 r r' q fun k => ?_
  refine congrArg (fun x => max x Cert.Sage.zero) ?_
  refine lin_row _ _ w2 b2 r r' k fun k' => ?_
  refine congrArg (fun x => max x Cert.Sage.zero) ?_
  refine lin_row _ _ w1 b1 r r' k' fun k'' => ?_
  show qs (ix2 r k'') * qd (ix2 r k'') = qs' (ix2 r' k'') * qd' (ix2 r' k'')
  rw [hs, hd]

/-- The decoder body's stored block is the decoder of the specification applied to the loaded blocks. -/
theorem k3_pay1_eq (v0 v2 : Vec Ideal S5000x128 .f32) (v6 : Vec Ideal S128x128 .f32) (v10 : Vec Ideal S128 .f32)
    (v17 : Vec Ideal S128x128 .f32) (v21 : Vec Ideal S128 .f32) (v28 : Vec Ideal S128x128 .f32) (v32 : Vec Ideal S128 .f32) :
    k3_pay1 (F := Ideal) v0 v2 v6 v10 v17 v21 v28 v32 = Cert.Sage.dec v0 v2 v6 v10 v17 v21 v28 v32 := by
  funext j
  obtain ⟨p, q, rfl⟩ : ∃ (p : Fin 5000) (q : Fin 128), j = ix2 p q := ⟨j 0, j 1, eq_ix2 j⟩
  unfold k3_pay1
  simp only [addf_apply, mm_apply, bias_apply, truncf_apply, maximumf_apply, broadcast_apply, mulf_apply, shapeCast_self]
  rfl

/-- BLOCKS AND THE TABLE.  If a block of 5000 rows holds rows `5000 T …` of the two gathered tables and the weights
    and biases are the same, then the decoder on the block, at an entry of the block, is the decoder on the tables at
    the entry `5000 T` rows further down. -/
theorem dec_block (qs qd : Cert.Sage.Mat 200000 128) (w1 : Cert.Sage.Mat 128 128) (b1 : Cert.Sage.Row 128)
    (w2 : Cert.Sage.Mat 128 128) (b2 : Cert.Sage.Row 128) (w3 : Cert.Sage.Mat 128 128) (b3 : Cert.Sage.Row 128)
    (x0 x1 : Cert.Sage.Mat 5000 128) (x2 : Cert.Sage.Mat 128 128) (x3 : Cert.Sage.Row 128)
    (x4 : Cert.Sage.Mat 128 128) (x5 : Cert.Sage.Row 128) (x6 : Cert.Sage.Mat 128 128) (x7 : Cert.Sage.Row 128) (T : Nat)
    (h0 : ∀ (r : Fin 5000) (r' : Fin 200000) (k : Fin 128), r'.val = 5000 * T + r.val → x0 (ix2 r k) = qs (ix2 r' k))
    (h1 : ∀ (r : Fin 5000) (r' : Fin 200000) (k : Fin 128), r'.val = 5000 * T + r.val → x1 (ix2 r k) = qd (ix2 r' k))
    (h2 : x2 = w1) (h3 : x3 = b1) (h4 : x4 = w2) (h5 : x5 = b2) (h6 : x6 = w3) (h7 : x7 = b3)
    (j : (⟨2, ![5000, 128]⟩ : Shape).Idx) (i : (⟨2, ![200000, 128]⟩ : Shape).Idx)
    (hi0 : (i 0).val = 5000 * T + (j 0).val) (hi1 : (i 1).val = (j 1).val) :
    Cert.Sage.dec x0 x1 x2 x3 x4 x5 x6 x7 j = Cert.Sage.dec qs qd w1 b1 w2 b2 w3 b3 i := by
  subst h2 h3 h4 h5 h6 h7
  obtain ⟨p, q, rfl⟩ : ∃ (p : Fin 5000) (q : Fin 128), j = ix2 p q := ⟨j 0, j 1, eq_ix2 j⟩
  obtain ⟨p', q', rfl⟩ : ∃ (p' : Fin 200000) (q' : Fin 128), i = ix2 p' q' := ⟨i 0, i 1, eq_ix2 i⟩
  obtain rfl : q' = q := Fin.ext hi1
  exact dec_row x0 x1 qs qd x2 x3 x4 x5 x6 x7 p p' q' (fun k => h0 p p' k hi0) (fun k => h1 p p' k hi0)

end Cert.KernelIdeal.RegionValue

end
-- ==== Proof.Region3.lean ====
/-
  REGION 3: the decoder, whole array.

  The region runs its body at forty grid points.  Point `t` stages rows `5000 t … 5000 t + 4999` of the two gathered
  tables, and the three weight matrices and three bias rows whole; its body stores the decoder of those blocks, which is
  written back as rows `5000 t …` of the result.  The decoder's value on a row depends on that row of the two gathered
  tables only, so what point `t` writes back is block `t` of the decoder of the WHOLE tables; the forty blocks tile the
  result (row `r` lies in block `r / 5000`), so the result array ends as the decoder of the tables the region found on
  entry.
-/
import proofs.«139408_j66992899883186_1_alg».proof.Proof.Gen.KernelIdeal.Frame
import proofs.«139408_j66992899883186_1_alg».proof.Proof.PayDec
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- Zero offsets, as the body's whole-buffer rectangles spell them. -/
theorem r3_hz2 : (![0, 0] : Fin 2 → Nat) = fun _ => 0 := funext fun a => by fin_cases a <;> rfl
theorem r3_hz1 : (![0] : Fin 1 → Nat) = fun _ => 0 := funext fun a => by fin_cases a; rfl

/-- The block each moving window stages at point `t`: the two gathered tables and the result move down one block of
    rows per point. -/
theorem r3_idx : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_8.index t (0 : Fin 2) = t.val ∧ win3_8.index t (1 : Fin 2) = 0) :=
  (by decide +kernel : ∀ t : Fin grid3.N, _)

/-- The weights and the biases stay at their one block. -/
theorem r3_wts : ∀ t : Fin cfg3.N,
    (win3_2.index t (0 : Fin 2) = 0 ∧ win3_2.index t (1 : Fin 2) = 0)
    ∧ win3_3.index t (0 : Fin 1) = 0
    ∧ (win3_4.index t (0 : Fin 2) = 0 ∧ win3_4.index t (1 : Fin 2) = 0)
    ∧ win3_5.index t (0 : Fin 1) = 0
    ∧ (win3_6.index t (0 : Fin 2) = 0 ∧ win3_6.index t (1 : Fin 2) = 0)
    ∧ win3_7.index t (0 : Fin 1) = 0 :=
  (by decide +kernel : ∀ t : Fin grid3.N, _)

/-- Row `r` of the block of gathered source rows at point `t` is row `5000 t + r` of the table. -/
theorem r3_read0 (c : Dev nD) (t : Fin cfg3.N) (r : Fin 5000) (r' : Fin 200000) (k : Fin 128)
    (hr : r'.val = 5000 * t.val + r.val) :
    (iblk3 V c 0 t : Cert.Sage.Mat 5000 128) (ix2 r k) = (V c (Pipeline.arrRef spec3 0) : Cert.Sage.Mat 200000 128) (ix2 r' k) := by
  have e0 := (r3_idx t).1.1
  have e1 := (r3_idx t).1.2
  unfold iblk3
  rw [View.read_apply]
  show V c (Pipeline.arrRef spec3 0) (((cfg3.win 0).blk t).view.emb (ix2 r k)) = V c (Pipeline.arrRef spec3 0) (ix2 r' k)
  refine congrArg _ (funext fun a => Fin.ext ?_)
  match a with
  | ⟨0, _⟩ => show win3_0.index t (0 : Fin 2) * 5000 + 1 * r.val = r'.val; rw [e0, hr]; omega
  | ⟨1, _⟩ => show win3_0.index t (1 : Fin 2) * 128 + 1 * k.val = k.val; rw [e1]; omega

/-- Row `r` of the block of gathered destination rows at point `t` is row `5000 t + r` of the table. -/
theorem r3_read1 (c : Dev nD) (t : Fin cfg3.N) (r : Fin 5000) (r' : Fin 200000) (k : Fin 128)
    (hr : r'.val = 5000 * t.val + r.val) :
    (iblk3 V c 1 t : Cert.Sage.Mat 5000 128) (ix2 r k) = (V c (Pipeline.arrRef spec3 1) : Cert.Sage.Mat 200000 128) (ix2 r' k) := by
  have e0 := (r3_idx t).2.1.1
  have e1 := (r3_idx t).2.1.2
  unfold iblk3
  rw [View.read_apply]
  show V c (Pipeline.arrRef spec3 1) (((cfg3.win 1).blk t).view.emb (ix2 r k)) = V c (Pipeline.arrRef spec3 1) (ix2 r' k)
  refine congrArg _ (funext fun a => Fin.ext ?_)
  match a with
  | ⟨0, _⟩ => show win3_1.index t (0 : Fin 2) * 5000 + 1 * r.val = r'.val; rw [e0, hr]; omega
  | ⟨1, _⟩ => show win3_1.index t (1 : Fin 2) * 128 + 1 * k.val = k.val; rw [e1]; omega

/-- The first weight matrix's one block is the matrix. -/
theorem r3_whole2 (c : Dev nD) (t : Fin cfg3.N) :
    (iblk3 V c 2 t : Cert.Sage.Mat 128 128) = V c (Pipeline.arrRef spec3 2) := by
  have e0 := (r3_wts t).1.1
  have e1 := (r3_wts t).1.2
  funext y
  unfold iblk3
  rw [View.read_apply]
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The first bias row's one block is the row. -/
theorem r3_whole3 (c : Dev nD) (t : Fin cfg3.N) :
    (iblk3 V c 3 t : Cert.Sage.Row 128) = V c (Pipeline.arrRef spec3 3) := by
  have e0 := (r3_wts t).2.1
  funext y
  unfold iblk3
  rw [View.read_apply]
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 1) * 128 + 1 * (y 0).val = (y 0).val; rw [e0]; omega

/-- The second weight matrix's one block is the matrix. -/
theorem r3_whole4 (c : Dev nD) (t : Fin cfg3.N) :
    (iblk3 V c 4 t : Cert.Sage.Mat 128 128) = V c (Pipeline.arrRef spec3 4) := by
  have e0 := (r3_wts t).2.2.1.1
  have e1 := (r3_wts t).2.2.1.2
  funext y
  unfold iblk3
  rw [View.read_apply]
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The second bias row's one block is the row. -/
theorem r3_whole5 (c : Dev nD) (t : Fin cfg3.N) :
    (iblk3 V c 5 t : Cert.Sage.Row 128) = V c (Pipeline.arrRef spec3 5) := by
  have e0 := (r3_wts t).2.2.2.1
  funext y
  unfold iblk3
  rw [View.read_apply]
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 1) * 128 + 1 * (y 0).val = (y 0).val; rw [e0]; omega

/-- The third weight matrix's one block is the matrix. -/
theorem r3_whole6 (c : Dev nD) (t : Fin cfg3.N) :
    (iblk3 V c 6 t : Cert.Sage.Mat 128 128) = V c (Pipeline.arrRef spec3 6) := by
  have e0 := (r3_wts t).2.2.2.2.1.1
  have e1 := (r3_wts t).2.2.2.2.1.2
  funext y
  unfold iblk3
  rw [View.read_apply]
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 128 + 1 * (y 0).val = (y 0).val; rw [e0]; omega
  | ⟨1, _⟩ => show win3_6.index t (1 : Fin 2) * 128 + 1 * (y 1).val = (y 1).val; rw [e1]; omega

/-- The third bias row's one block is the row. -/
theorem r3_whole7 (c : Dev nD) (t : Fin cfg3.N) :
    (iblk3 V c 7 t : Cert.Sage.Row 128) = V c (Pipeline.arrRef spec3 7) := by
  have e0 := (r3_wts t).2.2.2.2.2
  funext y
  unfold iblk3
  rw [View.read_apply]
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 1) * 128 + 1 * (y 0).val = (y 0).val; rw [e0]; omega

/-- WHAT POINT `t` WRITES BACK is block `t` of the decoder of the tables as the region finds them. -/
theorem r3_flushed (c : Dev nD) (t : Fin cfg3.N) :
    (dat3 V c).flushed 8 t = ((cfg3.win 8).blk t).view.read (Elt Ideal)
      (Cert.Sage.dec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  show (cfg3.win 8).cut (grid3.coords t) ((dat3 V c).after 8 t) = _
  rw [after3_8]
  unfold out3_8
  rw [View.canon_unit_zero r3_hz2]
  simp only [View.ld_unit_zero (S := S5000x128) r3_hz2, View.ld_unit_zero (S := S128x128) r3_hz2,
    View.ld_unit_zero (S := S128) r3_hz1]
  rw [k3_pay1_eq]
  have e0 := (r3_idx t).2.2.1
  have e1 := (r3_idx t).2.2.2
  funext j
  rw [View.read_apply]
  show Cert.Sage.dec (iblk3 V c 0 t) (iblk3 V c 1 t) (iblk3 V c 2 t) (iblk3 V c 3 t) (iblk3 V c 4 t) (iblk3 V c 5 t) (iblk3 V c 6 t) (iblk3 V c 7 t) ((cfg3.win 8).xinj (grid3.coords t) j)
    = Cert.Sage.dec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (((cfg3.win 8).blk t).view.emb j)
  refine dec_block (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (iblk3 V c 0 t) (iblk3 V c 1 t) (iblk3 V c 2 t) (iblk3 V c 3 t) (iblk3 V c 4 t) (iblk3 V c 5 t) (iblk3 V c 6 t) (iblk3 V c 7 t) t.val
    (fun r r' k hr => r3_read0 V c t r r' k hr) (fun r r' k hr => r3_read1 V c t r r' k hr)
    (r3_whole2 V c t) (r3_whole3 V c t) (r3_whole4 V c t) (r3_whole5 V c t) (r3_whole6 V c t) (r3_whole7 V c t)
    ((cfg3.win 8).xinj (grid3.coords t) j) (((cfg3.win 8).blk t).view.emb j) ?_ ?_
  · show win3_8.index t (0 : Fin 2) * 5000 + 1 * (j 0).val = 5000 * t.val + (j 0).val
    rw [e0]; omega
  · show win3_8.index t (1 : Fin 2) * 128 + 1 * (j 1).val = (j 1).val
    rw [e1]; omega

/-- An index of the result is in point `t`'s block iff each coordinate is in the block's range on its axis. -/
theorem r3_mem_blk (t : Fin cfg3.N) (i : S200000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole (Pipeline.arrRef spec3 8)).slice (win3_8.rect t)).set ↔ _
  rw [View.set_slice_whole, Rect.mem_set_unit]
  exact Iff.rfl

/-- The forty blocks tile the result: row `r` lies in the block of point `r / 5000`. -/
theorem r3_cover (i : S200000x128.Idx) :
    ∃ t : Fin cfg3.N, (cfg3.win 8).flush t = true ∧ i ∈ ((cfg3.win 8).blk t).view.set := by
  have hi0 : (i 0).val < 200000 := (i 0).isLt
  have hi1 : (i 1).val < 128 := (i 1).isLt
  have hN : cfg3.N = 40 := N_3
  refine ⟨⟨(i 0).val / 5000, by rw [hN]; omega⟩, flush3_8 _, ?_⟩
  have e0 := (r3_idx ⟨(i 0).val / 5000, by rw [hN]; omega⟩).2.2.1
  have e1 := (r3_idx ⟨(i 0).val / 5000, by rw [hN]; omega⟩).2.2.2
  rw [r3_mem_blk]
  intro a
  match a with
  | ⟨0, _⟩ =>
    show win3_8.index _ (0 : Fin 2) * 5000 ≤ (i 0).val ∧ (i 0).val < win3_8.index _ (0 : Fin 2) * 5000 + 5000
    rw [e0]; show (i 0).val / 5000 * 5000 ≤ (i 0).val ∧ (i 0).val < (i 0).val / 5000 * 5000 + 5000; omega
  | ⟨1, _⟩ =>
    show win3_8.index _ (1 : Fin 2) * 128 ≤ (i 1).val ∧ (i 1).val < win3_8.index _ (1 : Fin 2) * 128 + 128
    rw [e1]; omega

/-- THE RESULT ARRAY after the region: the decoder of the gathered tables, weights and biases as the region found them. -/
theorem final3 (c : Dev nD) :
    (dat3 V c).arrAt 8 cfg3.N
      = Cert.Sage.dec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 V c).arrAt_eq_of_cover 8 _ (fun t _ => r3_flushed V c t) r3_cover

end Cert.KernelIdeal.RegionValue

end
-- ==== Proof.PadSlice.lean ====
/-
  Zero-padding the last affine map and cutting the padding off again changes nothing.

  The kernel program widens the decoder's last weight matrix from 2 to 128 columns and its bias from 2 to 128 entries
  (new entries hold the padding value), computes all 128 output columns, and keeps columns 0 and 1.  Column `c < 2` of
  an affine map uses column `c` of the weights and entry `c` of the bias only, and those are untouched by the padding.
-/
import proofs.«139408_j66992899883186_1_alg».proof.Proof.Spec
import Idealize.ShloMosaic.Lib.KernelVsHost
import Idealize.ShloMosaic.Lib.Pipeline.Value

noncomputable section

namespace Cert.Sage

open Idealize.ShloMosaic Idealize.ShloMosaic.ValueIdx

/-- Columns 0 and 1 of the affine map with padded weights and bias are the affine map with the original ones. -/
theorem lin_pad_slice {n : Nat} (H : Mat n 128) (w : Mat 128 2) (b : Row 2) {u u' : Shape} (v : u.Idx → EReal) (v' : u'.Idx → EReal)
    (hw : (⟨2, ![128, 2]⟩ : Shape).Pads ![0, 0] ![0, 126] ![0, 0] ⟨2, ![128, 128]⟩) (hu : 0 < u.numel)
    (hb : (⟨1, ![2]⟩ : Shape).Pads ![0] ![126] ![0] ⟨1, ![128]⟩) (hu' : 0 < u'.numel)
    (hs : (⟨2, ![n, 128]⟩ : Shape).Slices ![0, 0] ⟨2, ![n, 2]⟩) :
    extractStridedSlice ⟨2, ![n, 2]⟩ ![0, 0]
        (lin H (pad ⟨2, ![128, 128]⟩ ![0, 0] ![0, 126] ![0, 0] w v hw hu) (pad ⟨1, ![128]⟩ ![0] ![126] ![0] b v' hb hu')) hs
      = lin H w b := by
  funext j
  obtain ⟨r, c, rfl⟩ : ∃ (r : Fin n) (c : Fin 2), j = ix2 r c := ⟨j 0, j 1, eq_ix2 j⟩
  have hc : c.val < 128 := lt_of_lt_of_le c.isLt (by decide)
  rw [extractStridedSlice_apply ![0, 0] _ hs (ix2 r c) (ix2 r ⟨c.val, hc⟩)
    (fun a => by match a with | ⟨0, _⟩ => exact (Nat.zero_add _).symm | ⟨1, _⟩ => exact (Nat.zero_add _).symm)]
  unfold lin
  show (∑ k : Fin 128, H (ix2 r k) * pad ⟨2, ![128, 128]⟩ ![0, 0] ![0, 126] ![0, 0] w v hw hu (ix2 k ⟨c.val, hc⟩))
        + pad ⟨1, ![128]⟩ ![0] ![126] ![0] b v' hb hu' (ix1 ⟨c.val, hc⟩)
      = (∑ k : Fin 128, H (ix2 r k) * w (ix2 k c)) + b (ix1 c)
  have e1 : ∀ k : Fin 128, pad ⟨2, ![128, 128]⟩ ![0, 0] ![0, 126] ![0, 0] w v hw hu (ix2 k ⟨c.val, hc⟩) = w (ix2 k c) := fun k =>
    pad_apply_of_inside ![0, 0] ![0, 126] ![0, 0] w v hw hu _ (ix2 k c)
      (fun a => by match a with | ⟨0, _⟩ => exact (by simp) | ⟨1, _⟩ => exact (by simp))
  have e2 : pad ⟨1, ![128]⟩ ![0] ![126] ![0] b v' hb hu' (ix1 ⟨c.val, hc⟩) = b (ix1 c) :=
    pad_apply_of_inside ![0] ![126] ![0] b v' hb hu' _ (ix1 c) (fun a => by match a with | ⟨0, _⟩ => exact (by simp))
  simp only [e1, e2]

/-- The decoder with a padded last layer, cut back to two columns, is the decoder. -/
theorem dec_pad_slice {n : Nat} (qs qd : Mat n 128) (w1 : Mat 128 128) (b1 : Row 128) (w2 : Mat 128 128) (b2 : Row 128)
    (w3 : Mat 128 2) (b3 : Row 2) {u u' : Shape} (v : u.Idx → EReal) (v' : u'.Idx → EReal)
    (hw : (⟨2, ![128, 2]⟩ : Shape).Pads ![0, 0] ![0, 126] ![0, 0] ⟨2, ![128, 128]⟩) (hu : 0 < u.numel)
    (hb : (⟨1, ![2]⟩ : Shape).Pads ![0] ![126] ![0] ⟨1, ![128]⟩) (hu' : 0 < u'.numel)
    (hs : (⟨2, ![n, 128]⟩ : Shape).Slices ![0, 0] ⟨2, ![n, 2]⟩) :
    extractStridedSlice ⟨2, ![n, 2]⟩ ![0, 0]
        (dec qs qd w1 b1 w2 b2 (pad ⟨2, ![128, 128]⟩ ![0, 0] ![0, 126] ![0, 0] w3 v hw hu) (pad ⟨1, ![128]⟩ ![0] ![126] ![0] b3 v' hb hu')) hs
      = dec qs qd w1 b1 w2 b2 w3 b3 := by
  unfold dec
  exact lin_pad_slice _ w3 b3 v v' hw hu hb hu' hs

end Cert.Sage

end
-- ==== Proof.KChain4.lean ====
/-
  The decoder.

  After the third layer the program gathers the rows of `z3` at the two rows of the query array, transposes the
  decoder's weight matrices, and widens the last layer's weights and bias with padding.  Region 3 leaves in its result
  array the decoder of those tables, 128 columns wide; the last host operation keeps columns 0 and 1.
-/
import proofs.«139408_j66992899883186_1_alg».proof.Proof.KChain3
import proofs.«139408_j66992899883186_1_alg».proof.Proof.Region3
import proofs.«139408_j66992899883186_1_alg».proof.Proof.PadSlice
import Idealize.ShloMosaic.Lib.StableHlo.Run

set_option maxRecDepth 16384

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the stretch that gathers and transposes (`W7`) -/

theorem W7_v80 (c : Dev nD) : W7 m ρ c (Proc.devRef .tc main_v80) = gs (aQ m c) (z3 m c) := by
  have raw : W7 m ρ c (Proc.devRef .tc main_v80)
      = gatherQ (qsOf (W6 m ρ c (Proc.devRef .tc main_arg2))) (W6 m ρ c (Proc.devRef .tc main_v69)) := by
    show StableHlo.after hostOps3 (W6 m ρ c) (Proc.devRef .tc main_v80) = _
    after_results_simp; rfl
  rw [raw, W6_arg2, W6_v69]; rfl
theorem W7_v87 (c : Dev nD) : W7 m ρ c (Proc.devRef .tc main_v87) = gd (aQ m c) (z3 m c) := by
  have raw : W7 m ρ c (Proc.devRef .tc main_v87)
      = gatherQ (qdOf (W6 m ρ c (Proc.devRef .tc main_arg2))) (W6 m ρ c (Proc.devRef .tc main_v69)) := by
    show StableHlo.after hostOps3 (W6 m ρ c) (Proc.devRef .tc main_v87) = _
    after_results_simp; rfl
  rw [raw, W6_arg2, W6_v69]; rfl
theorem W7_v88 (c : Dev nD) : W7 m ρ c (Proc.devRef .tc main_v88) = tr (aWd1 m c) := by
  have raw : W7 m ρ c (Proc.devRef .tc main_v88) = tr (W6 m ρ c (Proc.devRef .tc main_arg12)) := by
    show StableHlo.after hostOps3 (W6 m ρ c) (Proc.devRef .tc main_v88) = _
    after_results_simp; rfl
  rw [raw, W6_arg12]
theorem W7_v89 (c : Dev nD) : W7 m ρ c (Proc.devRef .tc main_v89) = tr (aWd2 m c) := by
  have raw : W7 m ρ c (Proc.devRef .tc main_v89) = tr (W6 m ρ c (Proc.devRef .tc main_arg14)) := by
    show StableHlo.after hostOps3 (W6 m ρ c) (Proc.devRef .tc main_v89) = _
    after_results_simp; rfl
  rw [raw, W6_arg14]
theorem W7_v90 (c : Dev nD) : W7 m ρ c (Proc.devRef .tc main_v90) = tr2 (aWd3 m c) := by
  have raw : W7 m ρ c (Proc.devRef .tc main_v90) = tr2 (W6 m ρ c (Proc.devRef .tc main_arg16)) := by
    show StableHlo.after hostOps3 (W6 m ρ c) (Proc.devRef .tc main_v90) = _
    after_results_simp; rfl
  rw [raw, W6_arg16]
theorem W7_arg13 (c : Dev nD) : W7 m ρ c (Proc.devRef .tc main_arg13) = abd1 m c := by
  host_keeps hostOps3; exact W6_arg13 m ρ c
theorem W7_arg15 (c : Dev nD) : W7 m ρ c (Proc.devRef .tc main_arg15) = abd2 m c := by
  host_keeps hostOps3; exact W6_arg15 m ρ c
theorem W7_arg17 (c : Dev nD) : W7 m ρ c (Proc.devRef .tc main_arg17) = abd3 m c := by
  host_keeps hostOps3; exact W6_arg17 m ρ c

/-! ## The two paddings (`W8`, `W10`) -/

theorem W8_v91 (c : Dev nD) : W8 m ρ c (Proc.devRef .tc main_v91) = padW (tr2 (aWd3 m c)) := by
  have raw : W8 m ρ c (Proc.devRef .tc main_v91) = padW (W7 m ρ c (Proc.devRef .tc main_v90)) := by
    show StableHlo.after hostOps3_1 (StableHlo.after hostOps3 (W6 m ρ c)) (Proc.devRef .tc main_v91) = _
    after_results_simp; rfl
  rw [raw, W7_v90]
theorem W10_v92 (c : Dev nD) : W10 m ρ c (Proc.devRef .tc main_v92) = padB (abd3 m c) := by
  have raw : W10 m ρ c (Proc.devRef .tc main_v92) = padB (W7 m ρ c (Proc.devRef .tc main_arg17)) := by
    show StableHlo.after hostOps3_3 (StableHlo.after hostOps3_2 (StableHlo.after hostOps3_1 (W7 m ρ c))) (Proc.devRef .tc main_v92) = _
    after_results_simp; rfl
  rw [raw, W7_arg17]

/-! ## What region 3 finds on entry (`W10`) -/

theorem W10_v80 (c : Dev nD) : W10 m ρ c (Proc.devRef .tc main_v80) = gs (aQ m c) (z3 m c) := by
  host_keeps hostOps3_3; host_keeps hostOps3_2; host_keeps hostOps3_1; exact W7_v80 m ρ c
theorem W10_v87 (c : Dev nD) : W10 m ρ c (Proc.devRef .tc main_v87) = gd (aQ m c) (z3 m c) := by
  host_keeps hostOps3_3; host_keeps hostOps3_2; host_keeps hostOps3_1; exact W7_v87 m ρ c
theorem W10_v88 (c : Dev nD) : W10 m ρ c (Proc.devRef .tc main_v88) = tr (aWd1 m c) := by
  host_keeps hostOps3_3; host_keeps hostOps3_2; host_keeps hostOps3_1; exact W7_v88 m ρ c
theorem W10_v89 (c : Dev nD) : W10 m ρ c (Proc.devRef .tc main_v89) = tr (aWd2 m c) := by
  host_keeps hostOps3_3; host_keeps hostOps3_2; host_keeps hostOps3_1; exact W7_v89 m ρ c
theorem W10_arg13 (c : Dev nD) : W10 m ρ c (Proc.devRef .tc main_arg13) = abd1 m c := by
  host_keeps hostOps3_3; host_keeps hostOps3_2; host_keeps hostOps3_1; exact W7_arg13 m ρ c
theorem W10_arg15 (c : Dev nD) : W10 m ρ c (Proc.devRef .tc main_arg15) = abd2 m c := by
  host_keeps hostOps3_3; host_keeps hostOps3_2; host_keeps hostOps3_1; exact W7_arg15 m ρ c
theorem W10_v91 (c : Dev nD) : W10 m ρ c (Proc.devRef .tc main_v91) = padW (tr2 (aWd3 m c)) := by
  host_keeps hostOps3_3; host_keeps hostOps3_2; exact W8_v91 m ρ c

/-! ## At region 3's exit, and the last slice -/

/-- The decoder's 128-column output. -/
def outFull (c : Dev nD) : Mat 200000 128 :=
  dec (gs (aQ m c) (z3 m c)) (gd (aQ m c) (z3 m c)) (tr (aWd1 m c)) (abd1 m c) (tr (aWd2 m c)) (abd2 m c)
    (padW (tr2 (aWd3 m c))) (padB (abd3 m c))

theorem W11_v93 (c : Dev nD) : W11 m ρ c (Proc.devRef .tc main_v93) = outFull m c := by
  refine (W11_arr m ρ c 8).trans ?_
  rw [Cert.KernelIdeal.RegionValue.final3 (V10 m ρ) c]
  have h0 : V10 m ρ c (Pipeline.arrRef spec3 0) = gs (aQ m c) (z3 m c) := W10_v80 m ρ c
  have h1 : V10 m ρ c (Pipeline.arrRef spec3 1) = gd (aQ m c) (z3 m c) := W10_v87 m ρ c
  have h2 : V10 m ρ c (Pipeline.arrRef spec3 2) = tr (aWd1 m c) := W10_v88 m ρ c
  have h3 : V10 m ρ c (Pipeline.arrRef spec3 3) = abd1 m c := W10_arg13 m ρ c
  have h4 : V10 m ρ c (Pipeline.arrRef spec3 4) = tr (aWd2 m c) := W10_v89 m ρ c
  have h5 : V10 m ρ c (Pipeline.arrRef spec3 5) = abd2 m c := W10_arg15 m ρ c
  have h6 : V10 m ρ c (Pipeline.arrRef spec3 6) = padW (tr2 (aWd3 m c)) := W10_v91 m ρ c
  have h7 : V10 m ρ c (Pipeline.arrRef spec3 7) = padB (abd3 m c) := W10_v92 m ρ c
  rw [h0, h1, h2, h3, h4, h5, h6, h7]; rfl

/-- The result buffer holds columns 0 and 1 of the decoder's padded output, which is the decoder itself. -/
theorem W12_v94 (c : Dev nD) : W12 m ρ c (Proc.devRef .tc main_v94)
    = dec (gs (aQ m c) (z3 m c)) (gd (aQ m c) (z3 m c)) (tr (aWd1 m c)) (abd1 m c) (tr (aWd2 m c)) (abd2 m c)
        (tr2 (aWd3 m c)) (abd3 m c) := by
  have raw : W12 m ρ c (Proc.devRef .tc main_v94)
      = extractStridedSlice S200000x2 ![0, 0] (W11 m ρ c (Proc.devRef .tc main_v93)) slices_S200000x128_S200000x2_0_0 := by
    show StableHlo.after hostOps4 (W11 m ρ c) (Proc.devRef .tc main_v94) = _
    after_results
  rw [raw, W11_v93]
  exact dec_pad_slice _ _ _ _ _ _ _ _ padVal padVal pads_S128x2_S128x128_000_01260 h_S_ pads_S2_S128_01260 h_S_
    slices_S200000x128_S200000x2_0_0

end Cert.KernelIdeal.Chain

end
-- ==== Proof.KRun.lean ====
/-
  The idealized kernel program's run, with its final memory NAMED.

  The program is twelve segments: stretches of host operations alternating with four pipelined regions.  The contents
  of the TensorCore's buffers at each segment boundary are a fold from the launch memory (`W0`, …, `W12`): a stretch
  of host operations applies them in order, a region leaves its arrays at what its write-backs produce and every other
  buffer as it found it.  Every weakly fair execution terminates without a fault in a state whose every unscoped buffer
  holds the last boundary's contents `W12`.  The frame claim keeps only the argument arrays of that statement; here it is
  kept whole, so that the result array can be read off it.
-/
import proofs.«139408_j66992899883186_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the launch memory `m` terminates, nothing faulting, in a state
    whose every unscoped buffer holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.RunValue

end
-- ==== Proof.KNet.lean ====
/-
  The idealized kernel program computes the network.

  Its result array ends at the network of the launch memory's argument arrays (`netOf`): the three layers' tables are
  what the three layer regions leave, the decoder region's padded output is cut back to its first two columns, and
  padding the last layer and cutting the padding off is the identity (`Cert.Sage.dec_pad_slice`).
-/
import proofs.«139408_j66992899883186_1_alg».proof.Proof.KChain4
import proofs.«139408_j66992899883186_1_alg».proof.Proof.KRun
import proofs.«139408_j66992899883186_1_alg».proof.Proof.PadSlice

set_option maxRecDepth 16384

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The network of the launch memory's argument arrays, with the kernel program's own host functions. -/
def netOf (c : Dev nD) : Mat 200000 2 :=
  net (agg (aE m c)) (gs (aQ m c)) (gd (aQ m c)) (aX m c)
    (tr (aWl1 m c)) (abl1 m c) (tr (aWr1 m c)) (tr (aWl2 m c)) (abl2 m c) (tr (aWr2 m c))
    (tr (aWl3 m c)) (abl3 m c) (tr (aWr3 m c))
    (tr (aWd1 m c)) (abd1 m c) (tr (aWd2 m c)) (abd2 m c) (tr2 (aWd3 m c)) (abd3 m c)

/-- The result buffer at the last segment boundary holds the network of the argument arrays. -/
theorem kernel_value (c : Dev nD) : W12 m ρ c (Proc.devRef .tc main_v94) = netOf m c :=
  (W12_v94 m ρ c).trans rfl

/-- Every weakly fair execution of the idealized kernel program terminates, nothing faulting, with the result array at the
    network of the argument arrays and the argument arrays as launched. -/
theorem run : θ_run defs (onTc (τ := τ) (main (F := Ideal))) ⟨m, fun _ => 0, ρ⟩ (fun r => ∀ c : Dev nD,
      r.2.mem ((c.tc : Thread nD τ).loc main_v94) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v94 (by decide))).trans (kernel_value m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c)⟩)
    (Cert.KernelIdeal.RunValue.run_all m ρ)

end Cert.KernelIdeal.Chain

end
-- ==== Proof.RefLayer.lean ====
/-
  One layer of the reference network on the table of 50000 nodes, read entry by entry.

  With extended reals for floats, the reference's `dot_general` of a table `a` (50000 x 128) with a matrix `w`
  (128 x 128) has the entry `sum_k a[r, k] * w[k, c]` at `(r, c)`: its one contracted axis is re-indexed by
  `Fin 128`.  A bias row broadcast first to one row and then to all rows has the entry `b[c]`, and the maximum
  with the broadcast literal 0.0 is the positive part.  Put together, the three additions of a layer are the
  specification's `sage`, for ANY two tables and ANY two matrices: nothing here looks at how the table of averages
  or the transposed weights were obtained.
-/
import proofs.«139408_j66992899883186_1_alg».proof.Proof.Gen.ReferenceIdeal.Read
import proofs.«139408_j66992899883186_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The contraction of a 50000-row table with a square matrix, at an entry: the sum over the 128 columns. -/
theorem dot50_apply (a : FVec Ideal S50000x128 .f32) (w : FVec Ideal S128x128 .f32) (i : S50000x128.Idx) :
    Host.dotGeneral (F := Ideal) dot_S50000x128_S128x128_S50000x128_1_0_0_1_n_n none a w i
      = ∑ k : Fin 128, a (ix2 (i 0) k) * w (ix2 k (i 1)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k :=
    funext fun d => Fin.ext (by
      match d with
      | ⟨0, _⟩ => exact Read.lhs_main_v24_0 _ _
      | ⟨1, _⟩ => exact (Read.lhs_main_v24_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (i 1) :=
    funext fun d => Fin.ext (by
      match d with
      | ⟨0, _⟩ => exact (Read.rhs_main_v24_0 _ _).trans hk
      | ⟨1, _⟩ => exact Read.rhs_main_v24_1 _ _)
  exact congrArg₂ (· * ·) (congrArg a el) (congrArg w er)

/-- A bias row, broadcast over the 50000 rows, has the row's entry of the column everywhere. -/
theorem bias50_apply (b : FVec Ideal S128 .f32) (i : S50000x128.Idx) :
    broadcastInDim S50000x128 ![0, 1] bcast_S1x128_S50000x128_0_1
        (broadcastInDim S1x128 ![1] bcast_S128_S1x128_1 b) i = b (ix1 (i 1)) :=
  ((Read.val_main_v26_apply (F := Ideal) b i).trans (Read.val_main_v25_apply (F := Ideal) b _)).trans
    (congrArg b (funext fun d => Fin.ext (by match d with | ⟨0, _⟩ => rfl)))

/-- The affine map of a 50000-row table: contraction plus broadcast bias is the specification's `lin`. -/
theorem lin50_eq (a : FVec Ideal S50000x128 .f32) (w : FVec Ideal S128x128 .f32) (b : FVec Ideal S128 .f32) :
    addf (Host.dotGeneral (F := Ideal) dot_S50000x128_S128x128_S50000x128_1_0_0_1_n_n none a w)
        (broadcastInDim S50000x128 ![0, 1] bcast_S1x128_S50000x128_0_1
          (broadcastInDim S1x128 ![1] bcast_S128_S1x128_1 b))
      = Cert.Sage.lin a w b := by
  funext i
  rw [addf_apply, dot50_apply, bias50_apply]
  rfl

/-- One layer before its activation: the affine map of the averages plus the contraction of the features. -/
theorem sage50_eq (mean feat : FVec Ideal S50000x128 .f32) (wl wr : FVec Ideal S128x128 .f32) (bl : FVec Ideal S128 .f32) :
    addf (addf (Host.dotGeneral (F := Ideal) dot_S50000x128_S128x128_S50000x128_1_0_0_1_n_n none mean wl)
          (broadcastInDim S50000x128 ![0, 1] bcast_S1x128_S50000x128_0_1
            (broadcastInDim S1x128 ![1] bcast_S128_S1x128_1 bl)))
        (Host.dotGeneral (F := Ideal) dot_S50000x128_S128x128_S50000x128_1_0_0_1_n_n none feat wr)
      = Cert.Sage.sage mean feat wl bl wr := by
  rw [lin50_eq]
  funext i
  rw [addf_apply, dot50_apply]
  rfl

/-- The maximum with the broadcast literal 0.0 is the positive part. -/
theorem relu50_eq (a : FVec Ideal S50000x128 .f32) :
    maximumf a (broadcastInDim S50000x128 ![] bcast_S_S50000x128 (constant (F := Ideal) S_ .f32 0x00000000#32))
      = Cert.Sage.relu a := by
  funext i
  rw [maximumf_apply, broadcastInDim_apply _ bcast_S_S50000x128 _ i ix0 (fun d => d.elim0)]
  rfl

end Cert.ReferenceIdeal.RefValue

end
-- ==== Proof.RefDecoder.lean ====
/-
  The reference's decoder on the table of 200000 candidate pairs, read entry by entry.

  The same three facts as for a layer, at the decoder's extents: a `dot_general` of a 200000-row table with a
  128 x 128 (or 128 x 2) matrix is the sum over the 128 columns, a bias row broadcast over the rows has the row's
  entry of the column everywhere, and the maximum with the broadcast literal 0.0 is the positive part.  The decoder
  is then the specification's `dec` of ANY two gathered tables: the entrywise product, then three affine maps, the
  first two followed by the positive part.
-/
import proofs.«139408_j66992899883186_1_alg».proof.Proof.Gen.ReferenceIdeal.Read
import proofs.«139408_j66992899883186_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The contraction of a 200000-row table with a square matrix, at an entry: the sum over the 128 columns. -/
theorem dot200_apply (a : FVec Ideal S200000x128 .f32) (w : FVec Ideal S128x128 .f32) (i : S200000x128.Idx) :
    Host.dotGeneral (F := Ideal) dot_S200000x128_S128x128_S200000x128_1_0_0_1_n_n none a w i
      = ∑ k : Fin 128, a (ix2 (i 0) k) * w (ix2 k (i 1)) := by
  simp only [Host.dotGeneral]
  rw [Ideal.dotGeneral_apply, ← Equiv.sum_comp (ValueIdx.contrEquiv1 dot_S200000x128_S128x128_S200000x128_1_0_0_1_n_n 128 rfl rfl).symm]
  refine Finset.sum_congr rfl fun k _ => ?_
  have hk := ValueIdx.contrEquiv1_symm_val dot_S200000x128_S128x128_S200000x128_1_0_0_1_n_n 128 rfl rfl k
  have el : dot_S200000x128_S128x128_S200000x128_1_0_0_1_n_n.lhsIdx i ((ValueIdx.contrEquiv1 dot_S200000x128_S128x128_S200000x128_1_0_0_1_n_n 128 rfl rfl).symm k) = ix2 (i 0) k :=
    funext fun d => Fin.ext (by
      match d with
      | ⟨0, _⟩ => exact Read.lhs_main_v107_0 _ _
      | ⟨1, _⟩ => exact (Read.lhs_main_v107_1 _ _).trans hk)
  have er : dot_S200000x128_S128x128_S200000x128_1_0_0_1_n_n.rhsIdx i ((ValueIdx.contrEquiv1 dot_S200000x128_S128x128_S200000x128_1_0_0_1_n_n 128 rfl rfl).symm k) = ix2 k (i 1) :=
    funext fun d => Fin.ext (by
      match d with
      | ⟨0, _⟩ => exact (Read.rhs_main_v107_0 _ _).trans hk
      | ⟨1, _⟩ => exact Read.rhs_main_v107_1 _ _)
  exact congrArg₂ (· * ·) (congrArg a el) (congrArg w er)

/-- The contraction of a 200000-row table with a 128 x 2 matrix, at an entry: the sum over the 128 columns. -/
theorem dot200x2_apply (a : FVec Ideal S200000x128 .f32) (w : FVec Ideal S128x2 .f32) (i : S200000x2.Idx) :
    Host.dotGeneral (F := Ideal) dot_S200000x128_S128x2_S200000x2_1_0_0_1_n_n none a w i
      = ∑ k : Fin 128, a (ix2 (i 0) k) * w (ix2 k (i 1)) := by
  simp only [Host.dotGeneral]
  rw [Ideal.dotGeneral_apply, ← Equiv.sum_comp (ValueIdx.contrEquiv1 dot_S200000x128_S128x2_S200000x2_1_0_0_1_n_n 128 rfl rfl).symm]
  refine Finset.sum_congr rfl fun k _ => ?_
  have hk := ValueIdx.contrEquiv1_symm_val dot_S200000x128_S128x2_S200000x2_1_0_0_1_n_n 128 rfl rfl k
  have el : dot_S200000x128_S128x2_S200000x2_1_0_0_1_n_n.lhsIdx i ((ValueIdx.contrEquiv1 dot_S200000x128_S128x2_S200000x2_1_0_0_1_n_n 128 rfl rfl).symm k) = ix2 (i 0) k :=
    funext fun d => Fin.ext (by
      match d with
      | ⟨0, _⟩ => exact Read.lhs_main_v119_0 _ _
      | ⟨1, _⟩ => exact (Read.lhs_main_v119_1 _ _).trans hk)
  have er : dot_S200000x128_S128x2_S200000x2_1_0_0_1_n_n.rhsIdx i ((ValueIdx.contrEquiv1 dot_S200000x128_S128x2_S200000x2_1_0_0_1_n_n 128 rfl rfl).symm k) = ix2 k (i 1) :=
    funext fun d => Fin.ext (by
      match d with
      | ⟨0, _⟩ => exact (Read.rhs_main_v119_0 _ _).trans hk
      | ⟨1, _⟩ => exact Read.rhs_main_v119_1 _ _)
  exact congrArg₂ (· * ·) (congrArg a el) (congrArg w er)

/-- A bias row of 128 entries, broadcast over the 200000 rows, has the row's entry of the column everywhere. -/
theorem bias200_apply (b : FVec Ideal S128 .f32) (i : S200000x128.Idx) :
    broadcastInDim S200000x128 ![0, 1] bcast_S1x128_S200000x128_0_1
        (broadcastInDim S1x128 ![1] bcast_S128_S1x128_1 b) i = b (ix1 (i 1)) :=
  ((Read.val_main_v109_apply (F := Ideal) b i).trans (Read.val_main_v108_apply (F := Ideal) b _)).trans
    (congrArg b (funext fun d => Fin.ext (by match d with | ⟨0, _⟩ => rfl)))

/-- A bias row of 2 entries, broadcast over the 200000 rows, has the row's entry of the column everywhere. -/
theorem bias200x2_apply (b : FVec Ideal S2 .f32) (i : S200000x2.Idx) :
    broadcastInDim S200000x2 ![0, 1] bcast_S1x2_S200000x2_0_1
        (broadcastInDim S1x2 ![1] bcast_S2_S1x2_1 b) i = b (ix1 (i 1)) :=
  ((Read.val_main_v121_apply (F := Ideal) b i).trans (Read.val_main_v120_apply (F := Ideal) b _)).trans
    (congrArg b (funext fun d => Fin.ext (by match d with | ⟨0, _⟩ => rfl)))

/-- An affine map of a 200000-row table onto 128 columns is the specification's `lin`. -/
theorem lin200_eq (a : FVec Ideal S200000x128 .f32) (w : FVec Ideal S128x128 .f32) (b : FVec Ideal S128 .f32) :
    addf (Host.dotGeneral (F := Ideal) dot_S200000x128_S128x128_S200000x128_1_0_0_1_n_n none a w)
        (broadcastInDim S200000x128 ![0, 1] bcast_S1x128_S200000x128_0_1
          (broadcastInDim S1x128 ![1] bcast_S128_S1x128_1 b))
      = Cert.Sage.lin a w b := by
  funext i
  rw [addf_apply, dot200_apply, bias200_apply]
  rfl

/-- The affine map of a 200000-row table onto 2 columns is the specification's `lin`. -/
theorem lin200x2_eq (a : FVec Ideal S200000x128 .f32) (w : FVec Ideal S128x2 .f32) (b : FVec Ideal S2 .f32) :
    addf (Host.dotGeneral (F := Ideal) dot_S200000x128_S128x2_S200000x2_1_0_0_1_n_n none a w)
        (broadcastInDim S200000x2 ![0, 1] bcast_S1x2_S200000x2_0_1
          (broadcastInDim S1x2 ![1] bcast_S2_S1x2_1 b))
      = Cert.Sage.lin a w b := by
  funext i
  rw [addf_apply, dot200x2_apply, bias200x2_apply]
  rfl

/-- The maximum with the broadcast literal 0.0 is the positive part. -/
theorem relu200_eq (a : FVec Ideal S200000x128 .f32) :
    maximumf a (broadcastInDim S200000x128 ![] bcast_S_S200000x128 (constant (F := Ideal) S_ .f32 0x00000000#32))
      = Cert.Sage.relu a := by
  funext i
  rw [maximumf_apply, broadcastInDim_apply _ bcast_S_S200000x128 _ i ix0 (fun d => d.elim0)]
  rfl

/-- The decoder on two gathered tables: the entrywise product through three affine maps, the first two followed
    by the positive part. -/
theorem dec200_eq (qs qd : FVec Ideal S200000x128 .f32) (w1 w2 : FVec Ideal S128x128 .f32) (w3 : FVec Ideal S128x2 .f32)
    (b1 b2 : FVec Ideal S128 .f32) (b3 : FVec Ideal S2 .f32) :
    addf (Host.dotGeneral (F := Ideal) dot_S200000x128_S128x2_S200000x2_1_0_0_1_n_n none
          (maximumf
            (addf (Host.dotGeneral (F := Ideal) dot_S200000x128_S128x128_S200000x128_1_0_0_1_n_n none
                  (maximumf
                    (addf (Host.dotGeneral (F := Ideal) dot_S200000x128_S128x128_S200000x128_1_0_0_1_n_n none (mulf qs qd) w1)
                      (broadcastInDim S200000x128 ![0, 1] bcast_S1x128_S200000x128_0_1
                        (broadcastInDim S1x128 ![1] bcast_S128_S1x128_1 b1)))
                    (broadcastInDim S200000x128 ![] bcast_S_S200000x128 (constant (F := Ideal) S_ .f32 0x00000000#32)))
                  w2)
              (broadcastInDim S200000x128 ![0, 1] bcast_S1x128_S200000x128_0_1
                (broadcastInDim S1x128 ![1] bcast_S128_S1x128_1 b2)))
            (broadcastInDim S200000x128 ![] bcast_S_S200000x128 (constant (F := Ideal) S_ .f32 0x00000000#32)))
          w3)
        (broadcastInDim S200000x2 ![0, 1] bcast_S1x2_S200000x2_0_1
          (broadcastInDim S1x2 ![1] bcast_S2_S1x2_1 b3))
      = Cert.Sage.dec qs qd w1 b1 w2 b2 w3 b3 := by
  rw [lin200_eq, relu200_eq, lin200_eq, relu200_eq, lin200x2_eq]
  rfl

end Cert.ReferenceIdeal.RefValue

end
-- ==== Proof.RefNet.lean ====
/-
  The reference network is the specification.

  The reference obtains a table's neighbourhood averages by the same few operations in each of its three layers:
  the source and target rows of the edge list, a negative source index moved up by the number of nodes, the
  source rows gathered, added up at their targets, and divided by the number of edges arriving at each target (at
  least one).  `agg` is that chain as a function of the table; `gs` and `gd` are the decoder's two gathers as
  functions of the table they read; `tr` and `tr2` are the transposes the weights go through.  None of them is
  ever opened: the three averages and the two gathered tables of the reference are these functions of the
  preceding table by unfolding names only, and everything between them is a layer or the decoder, which are the
  specification's `sage`, `relu` and `dec` for any operands.
-/
import proofs.«139408_j66992899883186_1_alg».proof.Proof.RefLayer
import proofs.«139408_j66992899883186_1_alg».proof.Proof.RefDecoder

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The source row of the edge list. -/
def src (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The target row of the edge list. -/
def dst (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- A negative node index counts from the end: it is moved up by the number of nodes. -/
def wrap (r : (⟨S800000, .i32⟩ : BufTy).Contents (Elt Ideal)) : (⟨S800000, .i32⟩ : BufTy).Contents (Elt Ideal) :=
  select (cmpi .slt r (broadcastInDim S800000 ![] bcast_S_S800000 (constantI S_ 32 0#32)))
    (addi r (broadcastInDim S800000 ![] bcast_S_S800000 (constantI S_ 32 50000#32))) r

/-- The neighbourhood averages of a table: the source rows gathered, added up at their targets, and divided by
    the number of edges arriving at each target, or by one where none arrives. -/
def agg (x1 : (⟨S2x800000, .i32⟩ : BufTy).Contents (Elt Ideal)) (feat : Cert.Sage.Mat 50000 128) : Cert.Sage.Mat 50000 128 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dst x1))
      (Host.gather gather_S50000x128_S800000x1_S800000x128_1_0_n_n_0_1_1128 feat
        (broadcastInDim S800000x1 ![0] bcast_S800000_S800000x1_0 (wrap (src x1)))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (dst x1))
            (broadcastInDim S800000 ![] bcast_S_S800000 (constant (F := Ideal) S_ .f32 0x3F800000#32)))
          (broadcastInDim S50000 ![] bcast_S_S50000 (constant (F := Ideal) S_ .f32 0x3F800000#32)))))

/-- The first row of the list of candidate pairs. -/
def qsrc (x2 : (⟨S2x200000, .i32⟩ : BufTy).Contents (Elt Ideal)) : (⟨S200000, .i32⟩ : BufTy).Contents (Elt Ideal) :=
  shapeCast _ (extractStridedSlice S1x200000 ![0, 0] x2 slices_S2x200000_S1x200000_0_0) shapeCasts_S1x200000_S200000

/-- The second row of the list of candidate pairs. -/
def qdst (x2 : (⟨S2x200000, .i32⟩ : BufTy).Contents (Elt Ideal)) : (⟨S200000, .i32⟩ : BufTy).Contents (Elt Ideal) :=
  shapeCast _ (extractStridedSlice S1x200000 ![1, 0] x2 slices_S2x200000_S1x200000_1_0) shapeCasts_S1x200000_S200000

/-- A negative node index among the candidate pairs, moved up by the number of nodes. -/
def qwrap (r : (⟨S200000, .i32⟩ : BufTy).Contents (Elt Ideal)) : (⟨S200000, .i32⟩ : BufTy).Contents (Elt Ideal) :=
  select (cmpi .slt r (broadcastInDim S200000 ![] bcast_S_S200000 (constantI S_ 32 0#32)))
    (addi r (broadcastInDim S200000 ![] bcast_S_S200000 (constantI S_ 32 50000#32))) r

/-- The rows of a table at the candidate pairs' first nodes. -/
def gs (x2 : (⟨S2x200000, .i32⟩ : BufTy).Contents (Elt Ideal)) (z : Cert.Sage.Mat 50000 128) : Cert.Sage.Mat 200000 128 :=
  Host.gather gather_S50000x128_S200000x1_S200000x128_1_0_n_n_0_1_1128 z
    (broadcastInDim S200000x1 ![0] bcast_S200000_S200000x1_0 (qwrap (qsrc x2)))

/-- The rows of a table at the candidate pairs' second nodes. -/
def gd (x2 : (⟨S2x200000, .i32⟩ : BufTy).Contents (Elt Ideal)) (z : Cert.Sage.Mat 50000 128) : Cert.Sage.Mat 200000 128 :=
  Host.gather gather_S50000x128_S200000x1_S200000x128_1_0_n_n_0_1_1128 z
    (broadcastInDim S200000x1 ![0] bcast_S200000_S200000x1_0 (qwrap (qdst x2)))

/-- A square weight matrix, transposed. -/
def tr (w : FVec Ideal S128x128 .f32) : FVec Ideal S128x128 .f32 :=
  transpose S128x128 [1, 0] w transposes_S128x128_S128x128_1_0

/-- The last weight matrix, 2 x 128, transposed to 128 x 2. -/
def tr2 (w : FVec Ideal S2x128 .f32) : FVec Ideal S128x2 .f32 :=
  transpose S128x2 [1, 0] w transposes_S2x128_S128x2_1_0

/-- One layer followed by its positive part, as a function of the table it is applied to. -/
def layer (x1 : (⟨S2x800000, .i32⟩ : BufTy).Contents (Elt Ideal)) (z : Cert.Sage.Mat 50000 128) (wl : Cert.Sage.Mat 128 128) (bl : Cert.Sage.Row 128)
    (wr : Cert.Sage.Mat 128 128) : Cert.Sage.Mat 50000 128 :=
  Cert.Sage.relu (Cert.Sage.sage (agg x1 z) z wl bl wr)

/- The arguments of the reference, in its order: the node features, the edge list, the candidate pairs, three
   layers' weights and biases, the decoder's. -/
variable (x0 : (⟨S50000x128, .f32⟩ : BufTy).Contents (Elt Ideal)) (x1 : (⟨S2x800000, .i32⟩ : BufTy).Contents (Elt Ideal)) (x2 : (⟨S2x200000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))
  (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
  (x16 : (⟨S2x128, .f32⟩ : BufTy).Contents (Elt Ideal)) (x17 : (⟨S2, .f32⟩ : BufTy).Contents (Elt Ideal))

/-! The reference's three averages and two gathered tables are these functions of the preceding table: only names
    are unfolded. -/

theorem mean1_eq : Read.val_main_v22 (F := Ideal) x0 x1 = agg x1 x0 := rfl

theorem mean2_eq :
    Read.val_main_v50 (F := Ideal) x0 x1 x3 x4 x5 = agg x1 (Read.val_main_v31 (F := Ideal) x0 x1 x3 x4 x5) := rfl

theorem mean3_eq :
    Read.val_main_v78 (F := Ideal) x0 x1 x3 x4 x5 x6 x7 x8
      = agg x1 (Read.val_main_v59 (F := Ideal) x0 x1 x3 x4 x5 x6 x7 x8) := rfl

theorem gs_eq :
    Read.val_main_v97 (F := Ideal) x0 x1 x2 x3 x4 x5 x6 x7 x8 x9 x10 x11
      = gs x2 (Read.val_main_v86 (F := Ideal) x0 x1 x3 x4 x5 x6 x7 x8 x9 x10 x11) := rfl

theorem gd_eq :
    Read.val_main_v104 (F := Ideal) x0 x1 x2 x3 x4 x5 x6 x7 x8 x9 x10 x11
      = gd x2 (Read.val_main_v86 (F := Ideal) x0 x1 x3 x4 x5 x6 x7 x8 x9 x10 x11) := rfl

/-! The three layers, from the first to the third. -/

theorem z1_eq :
    Read.val_main_v31 (F := Ideal) x0 x1 x3 x4 x5 = layer x1 x0 (tr x3) x4 (tr x5) := by
  unfold Read.val_main_v31 Read.val_main_v30 Read.val_main_v27 Read.val_main_v24 Read.val_main_v29 Read.val_main_v26 Read.val_main_v25 Read.val_main_v23 Read.val_main_v28 Read.val_main_call0_v0 Read.val_main_call0_cst
  rw [mean1_eq, sage50_eq, relu50_eq]
  rfl

theorem z2_eq :
    Read.val_main_v59 (F := Ideal) x0 x1 x3 x4 x5 x6 x7 x8
      = layer x1 (layer x1 x0 (tr x3) x4 (tr x5)) (tr x6) x7 (tr x8) := by
  unfold Read.val_main_v59 Read.val_main_v58 Read.val_main_v55 Read.val_main_v52 Read.val_main_v57 Read.val_main_v54 Read.val_main_v53 Read.val_main_v51 Read.val_main_v56 Read.val_main_call1_v0 Read.val_main_call1_cst
  rw [mean2_eq, sage50_eq, relu50_eq, z1_eq]
  rfl

theorem z3_eq :
    Read.val_main_v86 (F := Ideal) x0 x1 x3 x4 x5 x6 x7 x8 x9 x10 x11
      = Cert.Sage.sage (agg x1 (layer x1 (layer x1 x0 (tr x3) x4 (tr x5)) (tr x6) x7 (tr x8)))
          (layer x1 (layer x1 x0 (tr x3) x4 (tr x5)) (tr x6) x7 (tr x8)) (tr x9) x10 (tr x11) := by
  unfold Read.val_main_v86 Read.val_main_v83 Read.val_main_v80 Read.val_main_v85 Read.val_main_v82 Read.val_main_v81 Read.val_main_v79 Read.val_main_v84
  rw [mean3_eq, sage50_eq, z2_eq]
  rfl

/-- The reference's result is the specification's network of the arguments, with the reference's own averaging,
    gathers and transposes. -/
theorem result_eq :
    Read.val_main_v122 (F := Ideal) x0 x1 x2 x3 x4 x5 x6 x7 x8 x9 x10 x11 x12 x13 x14 x15 x16 x17
      = Cert.Sage.net (agg x1) (gs x2) (gd x2) x0 (tr x3) x4 (tr x5) (tr x6) x7 (tr x8) (tr x9) x10 (tr x11)
          (tr x12) x13 (tr x14) x15 (tr2 x16) x17 := by
  unfold Read.val_main_v122 Read.val_main_v119 Read.val_main_v121 Read.val_main_v120 Read.val_main_v118 Read.val_main_v117 Read.val_main_call3_v0 Read.val_main_call3_cst Read.val_main_v116 Read.val_main_v115 Read.val_main_v114 Read.val_main_v113 Read.val_main_v112 Read.val_main_v111 Read.val_main_call2_v0 Read.val_main_call2_cst Read.val_main_v110 Read.val_main_v109 Read.val_main_v108 Read.val_main_v107 Read.val_main_v106 Read.val_main_v105
  rw [gs_eq, gd_eq, dec200_eq, z3_eq]
  rfl

end Cert.ReferenceIdeal.RefValue

end
-- ==== Proof.Join.lean ====
/-
  The two programs are one network.

  Outside its pipelined regions the kernel program prepares its tables by the very operations the reference uses:
  the two rows of the edge list, a negative index moved up by the number of nodes, gather, sum at the targets,
  division by the clamped number of arriving edges; the gathers at the candidate pairs; the transposes of the
  weights.  The two programs spell these with dimension records and shape facts of their own, which are the same
  small literals, so each function of the kernel program IS the reference's function of the same name: nothing
  is computed to see it, the definitions are unfolded and the records compared.  With that, the reference's result
  (the specification's network with the reference's own averaging, gathers and transposes) and the value the kernel
  program leaves (the same network with its own) are the same term once the two launch memories agree on the
  eighteen arguments.
-/
import proofs.«139408_j66992899883186_1_alg».proof.Proof.KNet
import proofs.«139408_j66992899883186_1_alg».proof.Proof.RefNet

noncomputable section

namespace Cert.Proof.Join

open Idealize.ShloMosaic Idealize.ShloMosaic.TcCoe Idealize.SL.Sem

/-! ## The host functions of the two programs coincide -/

/-- Neighbourhood averaging over an edge list: the same operations in both programs. -/
theorem agg_eq (e : Cert.KernelIdeal.Host.IArr Cert.KernelIdeal.S2x800000) : Cert.KernelIdeal.Host.agg e = Cert.ReferenceIdeal.RefValue.agg e := rfl

/-- The rows gathered at the candidate pairs' first nodes. -/
theorem gs_eq (q : Cert.KernelIdeal.Host.IArr Cert.KernelIdeal.S2x200000) : Cert.KernelIdeal.Host.gs q = Cert.ReferenceIdeal.RefValue.gs q := rfl

/-- The rows gathered at the candidate pairs' second nodes. -/
theorem gd_eq (q : Cert.KernelIdeal.Host.IArr Cert.KernelIdeal.S2x200000) : Cert.KernelIdeal.Host.gd q = Cert.ReferenceIdeal.RefValue.gd q := rfl

/-- The transpose of a square weight matrix. -/
theorem tr_eq (w : Cert.Sage.Mat 128 128) : Cert.KernelIdeal.Host.tr w = Cert.ReferenceIdeal.RefValue.tr w := rfl

/-- The transpose of the last, 2 x 128, weight matrix. -/
theorem tr2_eq (w : Cert.Sage.Mat 2 128) : Cert.KernelIdeal.Host.tr2 w = Cert.ReferenceIdeal.RefValue.tr2 w := rfl

/-! ## The reference's result is the kernel program's network -/

/-- From launch memories that agree on the eighteen arguments, the reference's result term is the network of the
    kernel program's argument arrays. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v122 m' c = Cert.KernelIdeal.Chain.netOf m c := by
  obtain ⟨h0, h1, h2, h3, h4, h5, h6, h7, h8, h9, h10, h11, h12, h13, h14, h15, h16, h17⟩ := hagree
  rw [Cert.ReferenceIdeal.Read.val_main_v122_eq, h0, h1, h2, h3, h4, h5, h6, h7, h8, h9, h10, h11, h12, h13, h14, h15, h16, h17, Cert.ReferenceIdeal.RefValue.result_eq]
  unfold Cert.KernelIdeal.Chain.netOf
  simp only [agg_eq, gs_eq, gd_eq, tr_eq, tr2_eq]

end Cert.Proof.Join

end
-- ==== Proof.lean ====
/-
  A three-layer neighbourhood-averaging graph network with a three-layer decoder, written once as a pipelined
  kernel program and once as plain array operations, is one function.

  A layer sends a table `z` of node features (50000 x 128) to `mean(z) · Wl^T + bl + z · Wr^T`, where `mean(z)`
  averages the rows of `z` over each node's arriving edges; the first two layers end with the positive part.  The
  decoder multiplies, entry by entry, the rows of the last table at the two nodes of each of 200000 candidate pairs and
  applies three affine maps onto 128, 128 and 2 columns, the first two followed by the positive part.
  Both programs are shown equal, entry by entry over the extended reals, to ONE specification of this function,
  `Cert.Sage.net`, which leaves averaging, gathering and transposing abstract.  The reference is the specification
  with its own averaging, gathers and transposes.  The kernel program's four regions compute the same layers and the
  same decoder block of rows by block of rows — a matrix product accumulated from zero and a `dot_general` are the
  same sum over the 128 columns, and a layer's value on a row needs only that row of its two tables — and between
  the regions it prepares its tables by the very operations of the reference.  It also widens the last affine map
  from 2 to 128 columns and keeps the first 2 columns of the result, which changes nothing.  No other law is needed:
  no sum is re-ordered, nothing is distributed or cancelled, and finiteness of the inputs is never used.
  The frames are the generated ones of the two kernel programs and the reference's generated run with its result
  dropped; the idealization rewrote no operation, so there is nothing for it to preserve.
-/
import proofs.«139408_j66992899883186_1_alg».proof.Defs
import proofs.«139408_j66992899883186_1_alg».proof.Proof.Gen.Kernel
import proofs.«139408_j66992899883186_1_alg».proof.Proof.Gen.Kernel.Skeleton
import proofs.«139408_j66992899883186_1_alg».proof.Proof.Gen.Kernel.Launch
import proofs.«139408_j66992899883186_1_alg».proof.Proof.Gen.Kernel.Points
import proofs.«139408_j66992899883186_1_alg».proof.Proof.Gen.Kernel.Frame
import proofs.«139408_j66992899883186_1_alg».proof.Proof.Gen.KernelIdeal
import proofs.«139408_j66992899883186_1_alg».proof.Proof.Gen.KernelIdeal.Skeleton
import proofs.«139408_j66992899883186_1_alg».proof.Proof.Gen.KernelIdeal.Launch
import proofs.«139408_j66992899883186_1_alg».proof.Proof.Gen.KernelIdeal.Points
import proofs.«139408_j66992899883186_1_alg».proof.Proof.Gen.KernelIdeal.Frame
import proofs.«139408_j66992899883186_1_alg».proof.Proof.Gen.ReferenceIdeal
import proofs.«139408_j66992899883186_1_alg».proof.Proof.Gen.ReferenceIdeal.Run
import proofs.«139408_j66992899883186_1_alg».proof.Proof.Gen.ReferenceIdeal.Read
import proofs.«139408_j66992899883186_1_alg».proof.Proof.Gen.Pre_finite_inputs
import proofs.«139408_j66992899883186_1_alg».proof.Proof.KNet
import proofs.«139408_j66992899883186_1_alg».proof.Proof.RefNet
import proofs.«139408_j66992899883186_1_alg».proof.Proof.Join
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_Kernel : Cert.frame_Kernel := fun m ρ _ => Cert.Kernel.Gen.frame m ρ

/-- So does its reading over the extended reals. -/
theorem frame_KernelIdeal : Cert.frame_KernelIdeal := fun m ρ _ => Cert.KernelIdeal.Gen.frame m ρ

/-- The reference runs and leaves its arguments as launched: its run, with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The reading over the extended reals rewrote no operation. -/
theorem preserves : Cert.preserves_Kernel_KernelIdeal := trivial

/-- From memories that agree on the eighteen arguments both programs end with the same table of 200000 x 2 extended
    reals: the network of the arguments.  The kernel program's result array ends at it, and the reference's result term
    is it. -/
theorem algebraic : Cert.algebraic_KernelIdeal_ReferenceIdeal := fun m ρ m' ρ' _ hagree =>
  ⟨fun c => Cert.KernelIdeal.Chain.netOf m c, Cert.KernelIdeal.Chain.run m ρ,
    (θ_run Cert.ReferenceIdeal.defs _ _).mono
      (fun _ h c => ⟨(h c).1.trans (Cert.Proof.Join.net_eq m m' c (hagree c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
